-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S128x64 : Shape := ⟨2, ![128, 64]⟩
abbrev S128 : Shape := ⟨1, ![128]⟩
abbrev S64x128 : Shape := ⟨2, ![64, 128]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S128 : S_.BroadcastsInDim S128 (![] : Fin 0 → Fin S128.rank)
  reducesTo_S128_S_d0 : S128.ReducesTo [0] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64x128 .f32) (main_arg6 : FVec F S64x128 .f32) (main_arg7 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S64x128 .f32 := Host.absf main_arg5
  let main_cst_6 : FVec F S_ .f32 := constant S_ .f32 0x7F800000#32
  let main_v20 : FVec F S64x128 .f32 := broadcastInDim S64x128 ![] bcast_S_S64x128 main_cst_6
  let main_v21 : IVec S64x128 1 := cmpf .olt main_v19 main_v20
  let main_c_7 : IVec S_ 1 := constantI S_ 1 1#1
  let main_v22 : IVec S_ 1 := (fun x v => Host.reduce IntOp.andi x v reducesTo_S64x128_S_d0_1 h_S_) main_v21 main_c_7
  let main_v23 : IVec S_ 1 := andi main_v18 main_v22
  let main_v24 : FVec F S64x128 .f32 := Host.absf main_arg6
  let main_cst_8 : FVec F S_ .f32 := constant S_ .f32 0x7F800000#32
  let main_v25 : FVec F S64x128 .f32 := broadcastInDim S64x128 ![] bcast_S_S64x128 main_cst_8
  let main_v26 : IVec S64x128 1 := cmpf .olt main_v24 main_v25
  let main_c_9 : IVec S_ 1 := constantI S_ 1 1#1
  let main_v27 : IVec S_ 1 := (fun x v => Host.reduce IntOp.andi x v reducesTo_S64x128_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S100000x64 .f32) (main_arg1 : IVec S2x1600000 32) (main_arg2 : FVec F S128x64 .f32) (main_arg3 : FVec F S128x64 .f32) (main_arg4 : FVec F S128 .f32) (main_arg5 : FVec F S64x128 .f32) (main_arg6 : FVec F S64x128 .f32) (main_arg7 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S128x64 .f32 := Host.absf main_arg3
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_v13 main_v16
-- ==== Kernel.lean ====
abbrev S100000x64 : Shape := ⟨2, ![100000, 64]⟩
abbrev S2x1600000 : Shape := ⟨2, ![2, 1600000]⟩
abbrev S128x64 : Shape := ⟨2, ![128, 64]⟩
abbrev S128 : Shape := ⟨1, ![128]⟩
abbrev S64x128 : Shape := ⟨2, ![64, 128]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x64 : Shape := ⟨2, ![1600000, 64]⟩
abbrev S1x128 : Shape := ⟨2, ![1, 128]⟩
abbrev S100000x128 : Shape := ⟨2, ![100000, 128]⟩
abbrev S4000x64 : Shape := ⟨2, ![4000, 64]⟩
abbrev S4000x1 : Shape := ⟨2, ![4000, 1]⟩
abbrev S4000x128 : Shape := ⟨2, ![4000, 128]⟩
abbrev S1600000x128 : Shape := ⟨2, ![1600000, 128]⟩
abbrev S1x64 : Shape := ⟨2, ![1, 64]⟩

abbrev nBuf : Space → Nat
  | .hbm => 59
  | .vmem => 22
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S128x64, .f32⟩
  | .hbm, ⟨3, _⟩ => ⟨S128x64, .f32⟩
  | .hbm, ⟨4, _⟩ => ⟨S128, .f32⟩
  | .hbm, ⟨5, _⟩ => ⟨S64x128, .f32⟩
  | .hbm, ⟨6, _⟩ => ⟨S64x128, .f32⟩
  | .hbm, ⟨7, _⟩ => ⟨S64, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .f32⟩
  | .hbm, ⟨13, _⟩ => ⟨S1600000, .f32⟩
  | .hbm, ⟨14, _⟩ => ⟨S_, .f32⟩
  | .hbm, ⟨15, _⟩ => ⟨S100000, .f32⟩
  | .hbm, ⟨16, _⟩ => ⟨S1600000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S100000x1, .f32⟩
  | .hbm, ⟨25, _⟩ => ⟨S100000x64, .bf16⟩
  | .hbm, ⟨26, _⟩ => ⟨S_, .i32⟩
  | .hbm, ⟨27, _⟩ => ⟨S1600000, .i32⟩
  | .hbm, ⟨28, _⟩ => ⟨S1600000, .i1⟩
  | .hbm, ⟨29, _⟩ => ⟨S_, .i32⟩
  | .hbm, ⟨30, _⟩ => ⟨S1600000, .i32⟩
  | .hbm, ⟨31, _⟩ => ⟨S1600000, .i32⟩
  | .hbm, ⟨32, _⟩ => ⟨S1600000, .i32⟩
  | .hbm, ⟨33, _⟩ => ⟨S1600000x1, .i32⟩
  | .hbm, ⟨34, _⟩ => ⟨S1600000x64, .bf16⟩
  | .hbm, ⟨35, _⟩ => ⟨S1600000x64, .f32⟩
  | .hbm, ⟨36, _⟩ => ⟨S_, .f32⟩
  | .hbm, ⟨37, _⟩ => ⟨S100000x64, .f32⟩
  | .hbm, ⟨38, _⟩ => ⟨S1600000x1, .i32⟩
  | .hbm, ⟨39, _⟩ => ⟨S100000x64, .f32⟩
  | .hbm, ⟨40, _⟩ => ⟨S1x128, .f32⟩
  | .hbm, ⟨41, _⟩ => ⟨S100000x128, .f32⟩
  | .hbm, ⟨42, _⟩ => ⟨S100000x128, .bf16⟩
  | .hbm, ⟨43, _⟩ => ⟨S_, .i32⟩
  | .hbm, ⟨44, _⟩ => ⟨S1600000, .i32⟩
  | .hbm, ⟨45, _⟩ => ⟨S1600000, .i1⟩
  | .hbm, ⟨46, _⟩ => ⟨S_, .i32⟩
  | .hbm, ⟨47, _⟩ => ⟨S1600000, .i32⟩
  | .hbm, ⟨48, _⟩ => ⟨S1600000, .i32⟩
  | .hbm, ⟨49, _⟩ => ⟨S1600000, .i32⟩
  | .hbm, ⟨50, _⟩ => ⟨S1600000x1, .i32⟩
  | .hbm, ⟨51, _⟩ => ⟨S1600000x128, .bf16⟩
  | .hbm, ⟨52, _⟩ => ⟨S1600000x128, .f32⟩
  | .hbm, ⟨53, _⟩ => ⟨S_, .f32⟩
  | .hbm, ⟨54, _⟩ => ⟨S100000x128, .f32⟩
  | .hbm, ⟨55, _⟩ => ⟨S1600000x1, .i32⟩
  | .hbm, ⟨56, _⟩ => ⟨S100000x128, .f32⟩
  | .hbm, ⟨57, _⟩ => ⟨S1x64, .f32⟩
  | .hbm, ⟨58, _⟩ => ⟨S100000x64, .f32⟩
  | .local _ .vmem, ⟨0, _⟩ => ⟨S4000x64, .f32⟩
  | .local _ .vmem, ⟨1, _⟩ => ⟨S4000x64, .f32⟩
  | .local _ .vmem, ⟨2, _⟩ => ⟨S4000x1, .f32⟩
  | .local _ .vmem, ⟨3, _⟩ => ⟨S4000x1, .f32⟩
  | .local _ .vmem, ⟨4, _⟩ => ⟨S4000x64, .f32⟩
  | .local _ .vmem, ⟨5, _⟩ => ⟨S4000x64, .f32⟩
  | .local _ .vmem, ⟨6, _⟩ => ⟨S128x64, .f32⟩
  | .local _ .vmem, ⟨7, _⟩ => ⟨S1x128, .f32⟩
  | .local _ .vmem, ⟨8, _⟩ => ⟨S128x64, .f32⟩
  | .local _ .vmem, ⟨9, _⟩ => ⟨S4000x128, .f32⟩
  | .local _ .vmem, ⟨10, _⟩ => ⟨S4000x128, .f32⟩
  | .local _ .vmem, ⟨11, _⟩ => ⟨S4000x128, .f32⟩
  | .local _ .vmem, ⟨12, _⟩ => ⟨S4000x128, .f32⟩
  | .local _ .vmem, ⟨13, _⟩ => ⟨S4000x1, .f32⟩
  | .local _ .vmem, ⟨14, _⟩ => ⟨S4000x1, .f32⟩
  | .local _ .vmem, ⟨15, _⟩ => ⟨S4000x128, .f32⟩
  | .local _ .vmem, ⟨16, _⟩ => ⟨S4000x128, .f32⟩
  | .local _ .vmem, ⟨17, _⟩ => ⟨S64x128, .f32⟩
  | .local _ .vmem, ⟨18, _⟩ => ⟨S1x64, .f32⟩
  | .local _ .vmem, ⟨19, _⟩ => ⟨S64x128, .f32⟩
  | .local _ .vmem, ⟨20, _⟩ => ⟨S4000x64, .f32⟩
  | .local _ .vmem, ⟨21, _⟩ => ⟨S4000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_c : Ref sig .tc := ⟨.hbm, 26, rfl⟩
abbrev main_v14 : Ref sig .tc := ⟨.hbm, 27, rfl⟩
abbrev main_v15 : Ref sig .tc := ⟨.hbm, 28, rfl⟩
abbrev main_c_3 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_4 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_c_5 : Ref sig .tc := ⟨.hbm, 43, rfl⟩
abbrev main_v28 : Ref sig .tc := ⟨.hbm, 44, rfl⟩
abbrev main_v29 : Ref sig .tc := ⟨.hbm, 45, rfl⟩
abbrev main_c_6 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_7 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S4000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S64x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S4000x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  bitsLt_bf16_f32 : FTy.bits .bf16 < FTy.bits .f32
  bcast_S_S100000x64 : S_.BroadcastsInDim S100000x64 (![] : Fin 0 → Fin S100000x64.rank)
  shapeCasts_S128_S1x128 : S128.ShapeCasts S1x128
  inb_S4000x64_S4000x64_0_0 : ∀ a, (![0, 0] : Fin 2 → Nat) a + S4000x64.size a ≤ S4000x64.size a
  h_S4000x64 : 0 < S4000x64.numel
  shapeCasts_S4000x64_S4000x64 : S4000x64.ShapeCasts S4000x64
  inb_S128x64_S128x64_0_0 : ∀ a, (![0, 0] : Fin 2 → Nat) a + S128x64.size a ≤ S128x64.size a
  h_S128x64 : 0 < S128x64.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x128 : S4000x1.Broadcasts S4000x128
  broadcasts_S1x128_S4000x128 : S1x128.Broadcasts S4000x128
  inb_S4000x128_S4000x128_0_0 : ∀ a, (![0, 0] : Fin 2 → Nat) a + S4000x128.size a ≤ S4000x128.size a
  h_S4000x128 : 0 < S4000x128.numel
  bcast_S_S100000x128 : S_.BroadcastsInDim S100000x128 (![] : Fin 0 → Fin S100000x128.rank)
  shapeCasts_S64_S1x64 : S64.ShapeCasts S1x64
  shapeCasts_S4000x128_S4000x128 : S4000x128.ShapeCasts S4000x128
  inb_S64x128_S64x128_0_0 : ∀ a, (![0, 0] : Fin 2 → Nat) a + S64x128.size a ≤ S64x128.size a
  h_S64x128 : 0 < S64x128.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S4000x1_S4000x64 : S4000x1.Broadcasts S4000x64
  broadcasts_S1x64_S4000x64 : S1x64.Broadcasts S4000x64
  scatter_S100000_S1600000x1_S1600000_n_0_0_1_wf : ScatterDims.WF S100000 S1600000x1 S1600000 [] [0] [0] 1
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S4000x64_S128x64_S4000x128_1_1_0_0_n_n_wf : DotDims.WF S4000x64 S128x64 S4000x128 [1] [1] [0] [0] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S4000x128_S64x128_S4000x64_1_1_0_0_n_n_wf : DotDims.WF S4000x128 S64x128 S4000x64 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x64.size a ≤ S100000x64.size a
  hwx0_0 : ∀ i : grid0.Coords, EltTy.bits .f32 = 32 ∨ (Rect.block (s := S100000x64) S4000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x1.size a ≤ S100000x1.size a
  hwx0_1 : ∀ i : grid0.Coords, EltTy.bits .f32 = 32 ∨ (Rect.block (s := S100000x1) S4000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x64.size a ≤ S100000x64.size a
  hwx0_2 : ∀ i : grid0.Coords, EltTy.bits .f32 = 32 ∨ (Rect.block (s := S100000x64) S4000x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x64.size a ≤ S128x64.size a
  hwx0_3 : ∀ i : grid0.Coords, EltTy.bits .f32 = 32 ∨ (Rect.block (s := S128x64) S128x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x64.size a ≤ S128x64.size a
  hwx0_5 : ∀ i : grid0.Coords, EltTy.bits .f32 = 32 ∨ (Rect.block (s := S128x64) S128x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4000x128.size a ≤ S100000x128.size a
  hwx0_6 : ∀ i : grid0.Coords, EltTy.bits .f32 = 32 ∨ (Rect.block (s := S100000x128) S4000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .f32 = 32 ∨ (Rect.block (s := S100000x128) S4000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x1.size a ≤ S100000x1.size a
  hwx1_1 : ∀ i : grid1.Coords, EltTy.bits .f32 = 32 ∨ (Rect.block (s := S100000x1) S4000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x128.size a ≤ S100000x128.size a
  hwx1_2 : ∀ i : grid1.Coords, EltTy.bits .f32 = 32 ∨ (Rect.block (s := S100000x128) S4000x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x128.size a ≤ S64x128.size a
  hwx1_3 : ∀ i : grid1.Coords, EltTy.bits .f32 = 32 ∨ (Rect.block (s := S64x128) S64x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x128.size a ≤ S64x128.size a
  hwx1_5 : ∀ i : grid1.Coords, EltTy.bits .f32 = 32 ∨ (Rect.block (s := S64x128) S64x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S4000x64.size a ≤ S100000x64.size a
  hwx1_6 : ∀ i : grid1.Coords, EltTy.bits .f32 = 32 ∨ (Rect.block (s := S100000x64) S4000x64.size (cc1_transform_6 i) (hinb1_6 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S4000x64_S128x64_S4000x128_1_1_0_0_n_n : DotDims S4000x64 S128x64 S4000x128 where
  lhsContracting := [1]
  rhsContracting := [1]
  lhsNonContracting := [0]
  rhsNonContracting := [0]
  lhsBatch := []
  rhsBatch := []
  wf := dot_S4000x64_S128x64_S4000x128_1_1_0_0_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S4000x128_S64x128_S4000x64_1_1_0_0_n_n : DotDims S4000x128 S64x128 S4000x64 where
  lhsContracting := [1]
  rhsContracting := [1]
  lhsNonContracting := [0]
  rhsNonContracting := [0]
  lhsBatch := []
  rhsBatch := []
  wf := dot_S4000x128_S64x128_S4000x64_1_1_0_0_n_n_wf

abbrev win0_0 : Pipeline.Window sig grid0 :=
  Pipeline.Window.ofSpec (Memref.whole main_v24) S4000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S4000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S4000x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S128x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v25) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg3) S128x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v26) S4000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v38) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S4000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v26) S4000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S64x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v39) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg6) S64x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v40) S4000x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S128x64 : Shape := ⟨2, ![128, 64]⟩
abbrev S128 : Shape := ⟨1, ![128]⟩
abbrev S64x128 : Shape := ⟨2, ![64, 128]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S100000 : Shape := ⟨1, ![100000]⟩
abbrev S100000x1 : Shape := ⟨2, ![100000, 1]⟩
abbrev S100000x128 : Shape := ⟨2, ![100000, 128]⟩
abbrev S1x128 : Shape := ⟨2, ![1, 128]⟩
abbrev S1600000x128 : Shape := ⟨2, ![1600000, 128]⟩
abbrev S1x64 : Shape := ⟨2, ![1, 64]⟩

abbrev nBuf : Space → Nat
  | .hbm => 93
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S128x64, .f32⟩
  | .hbm, ⟨3, _⟩ => ⟨S128x64, .f32⟩
  | .hbm, ⟨4, _⟩ => ⟨S128, .f32⟩
  | .hbm, ⟨5, _⟩ => ⟨S64x128, .f32⟩
  | .hbm, ⟨6, _⟩ => ⟨S64x128, .f32⟩
  | .hbm, ⟨7, _⟩ => ⟨S64, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x64, .f32⟩
  | .hbm, ⟨21, _⟩ => ⟨S_, .f32⟩
  | .hbm, ⟨22, _⟩ => ⟨S100000x64, .f32⟩
  | .hbm, ⟨23, _⟩ => ⟨S1600000x1, .i32⟩
  | .hbm, ⟨24, _⟩ => ⟨S100000x64, .f32⟩
  | .hbm, ⟨25, _⟩ => ⟨S_, .f32⟩
  | .hbm, ⟨26, _⟩ => ⟨S1600000, .f32⟩
  | .hbm, ⟨27, _⟩ => ⟨S_, .f32⟩
  | .hbm, ⟨28, _⟩ => ⟨S100000, .f32⟩
  | .hbm, ⟨29, _⟩ => ⟨S1600000x1, .i32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000x64, .f32⟩
  | .hbm, ⟨36, _⟩ => ⟨S100000x64, .f32⟩
  | .hbm, ⟨37, _⟩ => ⟨S64x128, .f32⟩
  | .hbm, ⟨38, _⟩ => ⟨S100000x128, .f32⟩
  | .hbm, ⟨39, _⟩ => ⟨S1x128, .f32⟩
  | .hbm, ⟨40, _⟩ => ⟨S100000x128, .f32⟩
  | .hbm, ⟨41, _⟩ => ⟨S100000x128, .f32⟩
  | .hbm, ⟨42, _⟩ => ⟨S64x128, .f32⟩
  | .hbm, ⟨43, _⟩ => ⟨S100000x128, .f32⟩
  | .hbm, ⟨44, _⟩ => ⟨S100000x128, .f32⟩
  | .hbm, ⟨45, _⟩ => ⟨S_, .f32⟩
  | .hbm, ⟨46, _⟩ => ⟨S100000x128, .f32⟩
  | .hbm, ⟨47, _⟩ => ⟨S100000x128, .f32⟩
  | .hbm, ⟨48, _⟩ => ⟨S1x1600000, .i32⟩
  | .hbm, ⟨49, _⟩ => ⟨S1600000, .i32⟩
  | .hbm, ⟨50, _⟩ => ⟨S1x1600000, .i32⟩
  | .hbm, ⟨51, _⟩ => ⟨S1600000, .i32⟩
  | .hbm, ⟨52, _⟩ => ⟨S_, .i32⟩
  | .hbm, ⟨53, _⟩ => ⟨S1600000, .i32⟩
  | .hbm, ⟨54, _⟩ => ⟨S1600000, .i1⟩
  | .hbm, ⟨55, _⟩ => ⟨S_, .i32⟩
  | .hbm, ⟨56, _⟩ => ⟨S1600000, .i32⟩
  | .hbm, ⟨57, _⟩ => ⟨S1600000, .i32⟩
  | .hbm, ⟨58, _⟩ => ⟨S1600000, .i32⟩
  | .hbm, ⟨59, _⟩ => ⟨S1600000x1, .i32⟩
  | .hbm, ⟨60, _⟩ => ⟨S1600000x128, .f32⟩
  | .hbm, ⟨61, _⟩ => ⟨S_, .f32⟩
  | .hbm, ⟨62, _⟩ => ⟨S100000x128, .f32⟩
  | .hbm, ⟨63, _⟩ => ⟨S1600000x1, .i32⟩
  | .hbm, ⟨64, _⟩ => ⟨S100000x128, .f32⟩
  | .hbm, ⟨65, _⟩ => ⟨S_, .f32⟩
  | .hbm, ⟨66, _⟩ => ⟨S1600000, .f32⟩
  | .hbm, ⟨67, _⟩ => ⟨S_, .f32⟩
  | .hbm, ⟨68, _⟩ => ⟨S100000, .f32⟩
  | .hbm, ⟨69, _⟩ => ⟨S1600000x1, .i32⟩
  | .hbm, ⟨70, _⟩ => ⟨S100000, .f32⟩
  | .hbm, ⟨71, _⟩ => ⟨S_, .f32⟩
  | .hbm, ⟨72, _⟩ => ⟨S100000, .f32⟩
  | .hbm, ⟨73, _⟩ => ⟨S100000, .f32⟩
  | .hbm, ⟨74, _⟩ => ⟨S100000x1, .f32⟩
  | .hbm, ⟨75, _⟩ => ⟨S100000x128, .f32⟩
  | .hbm, ⟨76, _⟩ => ⟨S100000x128, .f32⟩
  | .hbm, ⟨77, _⟩ => ⟨S128x64, .f32⟩
  | .hbm, ⟨78, _⟩ => ⟨S100000x64, .f32⟩
  | .hbm, ⟨79, _⟩ => ⟨S1x64, .f32⟩
  | .hbm, ⟨80, _⟩ => ⟨S100000x64, .f32⟩
  | .hbm, ⟨81, _⟩ => ⟨S100000x64, .f32⟩
  | .hbm, ⟨82, _⟩ => ⟨S128x64, .f32⟩
  | .hbm, ⟨83, _⟩ => ⟨S100000x64, .f32⟩
  | .hbm, ⟨84, _⟩ => ⟨S100000x64, .f32⟩
  | .hbm, ⟨85, _⟩ => ⟨S100000x64, .f32⟩
  | .hbm, ⟨86, _⟩ => ⟨S100000x64, .f32⟩
  | .hbm, ⟨87, _⟩ => ⟨S_, .f32⟩
  | .hbm, ⟨88, _⟩ => ⟨S100000x64, .f32⟩
  | .hbm, ⟨89, _⟩ => ⟨S100000x64, .f32⟩
  | .hbm, ⟨90, _⟩ => ⟨S_, .f32⟩
  | .hbm, ⟨91, _⟩ => ⟨S100000x64, .f32⟩
  | .hbm, ⟨92, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_call0_cst : Ref sig .tc := ⟨.hbm, 45, rfl⟩
abbrev main_call0_v0 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_c_4 : Ref sig .tc := ⟨.hbm, 52, rfl⟩
abbrev main_v36 : Ref sig .tc := ⟨.hbm, 53, rfl⟩
abbrev main_v37 : Ref sig .tc := ⟨.hbm, 54, rfl⟩
abbrev main_c_5 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_6 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_cst_7 : Ref sig .tc := ⟨.hbm, 65, rfl⟩
abbrev main_v46 : Ref sig .tc := ⟨.hbm, 66, rfl⟩
abbrev main_cst_8 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_cst_9 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_cst_10 : Ref sig .tc := ⟨.hbm, 87, rfl⟩
abbrev main_v65 : Ref sig .tc := ⟨.hbm, 88, rfl⟩
abbrev main_v66 : Ref sig .tc := ⟨.hbm, 89, rfl⟩
abbrev main_cst_11 : Ref sig .tc := ⟨.hbm, 90, rfl⟩
abbrev main_v67 : Ref sig .tc := ⟨.hbm, 91, rfl⟩
abbrev main_v68 : Ref sig .tc := ⟨.hbm, 92, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  transposes_S128x64_S64x128_1_0 : S128x64.Transposes [1, 0] S64x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  transposes_S64x128_S128x64_1_0 : S64x128.Transposes [1, 0] S128x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S100000_S1600000x1_S1600000_n_0_0_1_wf : ScatterDims.WF S100000 S1600000x1 S1600000 [] [0] [0] 1
  dot_S100000x64_S64x128_S100000x128_1_0_0_1_n_n_wf : DotDims.WF S100000x64 S64x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x64_S100000x64_1_0_0_1_n_n_wf : DotDims.WF S100000x128 S128x64 S100000x64 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x64_S64x128_S100000x128_1_0_0_1_n_n : DotDims S100000x64 S64x128 S100000x128 where
  lhsContracting := [1]
  rhsContracting := [0]
  lhsNonContracting := [0]
  rhsNonContracting := [1]
  lhsBatch := []
  rhsBatch := []
  wf := dot_S100000x64_S64x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.KernelRun.lean ====
/-
  The idealized kernel program's run, with its result named.

  @main is four segments: a stretch of host operations (the edge lists sliced out of edge_index, the in-degree count
  and its clamped reciprocal, the first gather and scatter-add), the first layer's pallas_call, a second stretch of
  host operations (the second gather and scatter-add, over the first layer's output) and the second layer's
  pallas_call. Every weakly fair execution of it terminates without a fault, and in the final state every buffer
  the TensorCore holds outside a call's staging buffers stands at the contents the fold through the four segments
  gives it at the last boundary (W4 of the generated frame module): the host stretches at what their operations
  compute from the previous boundary, each call's arrays at what its write-backs leave. The result array and the
  eight argument arrays are then read off that final state.
-/
import proofs.«130020_j47115791237141_2_alg».proof.Proof.Gen.KernelIdeal.Frame

set_option maxRecDepth 16384

noncomputable section

namespace Cert.KernelIdeal.SageRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with every buffer held outside the staging
    buffers at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-- The same run read at the result array and at the eight arguments: the result at the last boundary's contents,
    the arguments as launched. -/
theorem run_result : θ_run defs (onTc (τ := τ) (main (F := F))) ⟨m, fun _ => 0, ρ⟩ (fun r => ∀ c : Dev nD,
      r.2.mem ((c.tc : Thread nD τ).loc main_v40) = W4 m ρ c (Proc.devRef .tc main_v40)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
      ⟨h c _ (mem_uc main_v40 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c)⟩)
    (run_all m ρ)

end Cert.KernelIdeal.SageRun

end
-- ==== Proof.KernelBody.lean ====
/-
  What each kernel body computes, at one entry of its output block, on the extended reals.

  A body loads a block of 4000 rows of the summed neighbour features, the same rows of the scale column and of the
  node features, both weight matrices whole and the bias row. The bf16 roundings of its matrix-unit operands are
  the identity on the extended reals, a matrix product into a zero accumulator is the plain sum of products, the
  scale column broadcast along the row multiplies the finished aggregate product, the bias row is broadcast down
  the block. Entry (p, q) of the stored block is therefore

      act( (sum over k of agg(p,k) * Wl(q,k)) * scale(p) + (sum over k of x(p,k) * Wr(q,k)) + bias(q) ),

  with act the clamp below at 0 in the first call and the logistic function in the second.
-/
import proofs.«130020_j47115791237141_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.SageBody

open Cert.KernelIdeal Cert.KernelIdeal.Gen Idealize.ShloMosaic Idealize.ShloMosaic.ValueIdx

/-- A column of a rows broadcast along b columns reads, at (p, c), the column's entry p. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The first call: 64 input features, 128 output features -/

/-- The left operand's row coordinate under this contraction is the output's row. -/
theorem lhs0_0 (i : S4000x128.Idx) (q : dot_S4000x64_S128x64_S4000x128_1_1_0_0_n_n.contr.Idx) :
    (dot_S4000x64_S128x64_S4000x128_1_1_0_0_n_n.lhsIdx i q 0).val = (i 0).val := by
  unfold DotDims.lhsIdx
  rw [dif_neg (show ¬(0 : Fin S4000x64.rank) ∈ dot_S4000x64_S128x64_S4000x128_1_1_0_0_n_n.lhsBatch by decide), dif_pos (show (0 : Fin S4000x64.rank) ∈ dot_S4000x64_S128x64_S4000x128_1_1_0_0_n_n.lhsNonContracting by decide)]
  rfl
/-- The right operand is stored output-major: its row coordinate is the output's column. -/
theorem rhs0_0 (i : S4000x128.Idx) (q : dot_S4000x64_S128x64_S4000x128_1_1_0_0_n_n.contr.Idx) :
    (dot_S4000x64_S128x64_S4000x128_1_1_0_0_n_n.rhsIdx i q 0).val = (i 1).val := by
  unfold DotDims.rhsIdx
  rw [dif_neg (show ¬(0 : Fin S128x64.rank) ∈ dot_S4000x64_S128x64_S4000x128_1_1_0_0_n_n.rhsBatch by decide), dif_pos (show (0 : Fin S128x64.rank) ∈ dot_S4000x64_S128x64_S4000x128_1_1_0_0_n_n.rhsNonContracting by decide)]
  rfl

/-- The matrix product into a zero accumulator, at entry (p, q): row p of the left operand against row q of the
    right one, summed over the 64 shared features. -/
theorem matmul0_apply (l : FVec Ideal S4000x64 .bf16) (r : FVec Ideal S128x64 .bf16) (p : Fin 4000) (q : Fin 128) :
    matmul dot_S4000x64_S128x64_S4000x128_1_1_0_0_n_n none l r (constant (F := Ideal) S4000x128 .f32 0x00000000#32) (ix2 p q)
      = ∑ k : Fin 64, l (ix2 p k) * r (ix2 q k) := by
  simp only [matmul]
  rw [Ideal.matmul_constant_zero_apply, ← Equiv.sum_comp (contrEquiv1 dot_S4000x64_S128x64_S4000x128_1_1_0_0_n_n 64 rfl rfl).symm]
  refine Finset.sum_congr rfl fun k _ => ?_
  have hk := contrEquiv1_symm_val dot_S4000x64_S128x64_S4000x128_1_1_0_0_n_n 64 rfl rfl k
  have el : dot_S4000x64_S128x64_S4000x128_1_1_0_0_n_n.lhsIdx (ix2 p q) ((contrEquiv1 dot_S4000x64_S128x64_S4000x128_1_1_0_0_n_n 64 rfl rfl).symm k) = ix2 p k := funext fun a => Fin.ext (by
    match a with
    | ⟨0, _⟩ => exact lhs0_0 _ _
    | ⟨1, _⟩ => exact (dot_S4000x64_S128x64_S4000x128_1_1_0_0_n_n.lhsIdx_val_of_single rfl _ _).trans hk)
  have er : dot_S4000x64_S128x64_S4000x128_1_1_0_0_n_n.rhsIdx (ix2 p q) ((contrEquiv1 dot_S4000x64_S128x64_S4000x128_1_1_0_0_n_n 64 rfl rfl).symm k) = ix2 q k := funext fun a => Fin.ext (by
    match a with
    | ⟨0, _⟩ => exact rhs0_0 _ _
    | ⟨1, _⟩ => exact (dot_S4000x64_S128x64_S4000x128_1_1_0_0_n_n.rhsIdx_val_of_single rfl _ _).trans hk)
  rw [el, er]

/-- Entry (p, q) of the block the first call's body stores. -/
theorem pay0_apply (x0 x2 : Vec Ideal S4000x64 .f32) (x3 x5 : Vec Ideal S128x64 .f32) (x4 : Vec Ideal S1x128 .f32) (x1 : Vec Ideal S4000x1 .f32)
    (p : Fin 4000) (q : Fin 128) :
    k0_pay1 (F := Ideal) x0 x2 x3 x5 x4 x1 (ix2 p q)
      = max ((∑ k : Fin 64, x0 (ix2 p k) * x3 (ix2 q k)) * x1 (ix2 p (0 : Fin 1)) + (∑ k : Fin 64, x2 (ix2 p k) * x5 (ix2 q k)) + x4 (ix2 (0 : Fin 1) q)) 0 := by
  unfold k0_pay1
  simp only [maximumf_apply, addf_apply, mulf_apply, broadcast_apply, matmul0_apply, truncf_apply, shapeCast_self,
    broadcastTo_a1_ab_apply, broadcastTo_1b_ab_apply]
  exact congrArg (max _) Ideal.ofBits_zero_f32

/-! ## The second call: 128 input features, 64 output features -/

/-- The left operand's row coordinate under this contraction is the output's row. -/
theorem lhs1_0 (i : S4000x64.Idx) (q : dot_S4000x128_S64x128_S4000x64_1_1_0_0_n_n.contr.Idx) :
    (dot_S4000x128_S64x128_S4000x64_1_1_0_0_n_n.lhsIdx i q 0).val = (i 0).val := by
  unfold DotDims.lhsIdx
  rw [dif_neg (show ¬(0 : Fin S4000x128.rank) ∈ dot_S4000x128_S64x128_S4000x64_1_1_0_0_n_n.lhsBatch by decide), dif_pos (show (0 : Fin S4000x128.rank) ∈ dot_S4000x128_S64x128_S4000x64_1_1_0_0_n_n.lhsNonContracting by decide)]
  rfl
/-- The right operand is stored output-major: its row coordinate is the output's column. -/
theorem rhs1_0 (i : S4000x64.Idx) (q : dot_S4000x128_S64x128_S4000x64_1_1_0_0_n_n.contr.Idx) :
    (dot_S4000x128_S64x128_S4000x64_1_1_0_0_n_n.rhsIdx i q 0).val = (i 1).val := by
  unfold DotDims.rhsIdx
  rw [dif_neg (show ¬(0 : Fin S64x128.rank) ∈ dot_S4000x128_S64x128_S4000x64_1_1_0_0_n_n.rhsBatch by decide), dif_pos (show (0 : Fin S64x128.rank) ∈ dot_S4000x128_S64x128_S4000x64_1_1_0_0_n_n.rhsNonContracting by decide)]
  rfl

/-- The matrix product into a zero accumulator, at entry (p, q): row p of the left operand against row q of the
    right one, summed over the 128 shared features. -/
theorem matmul1_apply (l : FVec Ideal S4000x128 .bf16) (r : FVec Ideal S64x128 .bf16) (p : Fin 4000) (q : Fin 64) :
    matmul dot_S4000x128_S64x128_S4000x64_1_1_0_0_n_n none l r (constant (F := Ideal) S4000x64 .f32 0x00000000#32) (ix2 p q)
      = ∑ k : Fin 128, l (ix2 p k) * r (ix2 q k) := by
  simp only [matmul]
  rw [Ideal.matmul_constant_zero_apply, ← Equiv.sum_comp (contrEquiv1 dot_S4000x128_S64x128_S4000x64_1_1_0_0_n_n 128 rfl rfl).symm]
  refine Finset.sum_congr rfl fun k _ => ?_
  have hk := contrEquiv1_symm_val dot_S4000x128_S64x128_S4000x64_1_1_0_0_n_n 128 rfl rfl k
  have el : dot_S4000x128_S64x128_S4000x64_1_1_0_0_n_n.lhsIdx (ix2 p q) ((contrEquiv1 dot_S4000x128_S64x128_S4000x64_1_1_0_0_n_n 128 rfl rfl).symm k) = ix2 p k := funext fun a => Fin.ext (by
    match a with
    | ⟨0, _⟩ => exact lhs1_0 _ _
    | ⟨1, _⟩ => exact (dot_S4000x128_S64x128_S4000x64_1_1_0_0_n_n.lhsIdx_val_of_single rfl _ _).trans hk)
  have er : dot_S4000x128_S64x128_S4000x64_1_1_0_0_n_n.rhsIdx (ix2 p q) ((contrEquiv1 dot_S4000x128_S64x128_S4000x64_1_1_0_0_n_n 128 rfl rfl).symm k) = ix2 q k := funext fun a => Fin.ext (by
    match a with
    | ⟨0, _⟩ => exact rhs1_0 _ _
    | ⟨1, _⟩ => exact (dot_S4000x128_S64x128_S4000x64_1_1_0_0_n_n.rhsIdx_val_of_single rfl _ _).trans hk)
  rw [el, er]

/-- Entry (p, q) of the block the second call's body stores. -/
theorem pay1_apply (x0 x2 : Vec Ideal S4000x128 .f32) (x3 x5 : Vec Ideal S64x128 .f32) (x4 : Vec Ideal S1x64 .f32) (x1 : Vec Ideal S4000x1 .f32)
    (p : Fin 4000) (q : Fin 64) :
    k1_pay1 (F := Ideal) x0 x2 x3 x5 x4 x1 (ix2 p q)
      = Ideal.logistic ((∑ k : Fin 128, x0 (ix2 p k) * x3 (ix2 q k)) * x1 (ix2 p (0 : Fin 1)) + (∑ k : Fin 128, x2 (ix2 p k) * x5 (ix2 q k)) + x4 (ix2 (0 : Fin 1) q)) := by
  unfold k1_pay1
  show Ideal.logistic _ = _
  simp only [addf_apply, mulf_apply, matmul1_apply, truncf_apply, shapeCast_self,
    broadcastTo_a1_ab_apply, broadcastTo_1b_ab_apply]

end Cert.KernelIdeal.SageBody

end
-- ==== Proof.Layers.lean ====
/-
  One layer of the network as a function of whole arrays, entry by entry, on the extended reals.

  A layer takes the per-node sums S of the neighbours' feature rows, a column r of per-node scale factors (the
  reciprocal of the clamped in-degree), the node features X themselves, two weight matrices Wl and Wr stored
  output-major (entry (j, k) is the weight from input feature k to output feature j) and a bias row b. Entry (i, j)
  of the layer before its activation is

      (sum over k of S(i,k) * Wl(j,k)) * r(i)  +  (sum over k of X(i,k) * Wr(j,k))  +  b(j),

  the aggregate term scaled AFTER its contraction. The first layer clamps this below at 0, the second takes the
  logistic function of it. No program is imported here: these are the functions both programs are compared with.
-/
import Idealize.ShloMosaic.PureOps.Ideal
import Idealize.ShloMosaic.Lib.ValueIdx

noncomputable section

namespace Cert.Sage

open Idealize.ShloMosaic Idealize.ShloMosaic.ValueIdx

/-- Entry (i, j) of a layer before its activation: n nodes, c input features, o output features. -/
def pre (n c o : ℕ) (S : (⟨2, ![n, c]⟩ : Shape).Idx → EReal) (r : (⟨2, ![n, 1]⟩ : Shape).Idx → EReal)
    (X : (⟨2, ![n, c]⟩ : Shape).Idx → EReal) (Wl Wr : (⟨2, ![o, c]⟩ : Shape).Idx → EReal)
    (b : (⟨2, ![1, o]⟩ : Shape).Idx → EReal) : (⟨2, ![n, o]⟩ : Shape).Idx → EReal :=
  fun i => (∑ k : Fin c, S (ix2 (i 0) k) * Wl (ix2 (i 1) k)) * r (ix2 (i 0) (0 : Fin 1))
    + (∑ k : Fin c, X (ix2 (i 0) k) * Wr (ix2 (i 1) k)) + b (ix2 (0 : Fin 1) (i 1))

/-- The first layer: clamped below at 0. -/
def relu (n c o : ℕ) (S : (⟨2, ![n, c]⟩ : Shape).Idx → EReal) (r : (⟨2, ![n, 1]⟩ : Shape).Idx → EReal)
    (X : (⟨2, ![n, c]⟩ : Shape).Idx → EReal) (Wl Wr : (⟨2, ![o, c]⟩ : Shape).Idx → EReal)
    (b : (⟨2, ![1, o]⟩ : Shape).Idx → EReal) : (⟨2, ![n, o]⟩ : Shape).Idx → EReal :=
  fun i => max (pre n c o S r X Wl Wr b i) 0

/-- The second layer: the logistic function of it. -/
def sigmoid (n c o : ℕ) (S : (⟨2, ![n, c]⟩ : Shape).Idx → EReal) (r : (⟨2, ![n, 1]⟩ : Shape).Idx → EReal)
    (X : (⟨2, ![n, c]⟩ : Shape).Idx → EReal) (Wl Wr : (⟨2, ![o, c]⟩ : Shape).Idx → EReal)
    (b : (⟨2, ![1, o]⟩ : Shape).Idx → EReal) : (⟨2, ![n, o]⟩ : Shape).Idx → EReal :=
  fun i => Ideal.logistic (pre n c o S r X Wl Wr b i)

end Cert.Sage

end
-- ==== Proof.KernelBlocks.lean ====
/-
  From blocks to whole arrays: what each pallas_call leaves in its output array.

  Both calls run over a grid of 25 points. At point t the row-tiled windows — the summed neighbour features, the
  scale column, the node features and the output — are at rows 4000·t … 4000·t + 3999 of their 100000-row arrays,
  while both weight matrices and the bias row are staged whole at every point. So what point t writes back is rows
  4000·t … 4000·t + 3999 of ONE function of the whole arrays, the layer function of Layers.lean, and the 25 row
  blocks tile the output array: after the call the output array IS that function of the arrays as the call found
  them. Everything is stated at arbitrary entry contents V of the TensorCore's buffers, since the two calls are
  entered from different contents.
-/
import proofs.«130020_j47115791237141_2_alg».proof.Proof.Gen.KernelIdeal.Frame
import proofs.«130020_j47115791237141_2_alg».proof.Proof.KernelBody
import proofs.«130020_j47115791237141_2_alg».proof.Proof.Layers
import Idealize.ShloMosaic.Lib.Pipeline.Value
import Idealize.ShloMosaic.Lib.ValueIdx

set_option maxRecDepth 16384

noncomputable section

namespace Cert.KernelIdeal.SageBlocks

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-! ## Call 0: 64 input features, 128 output features -/

/-- The index maps, decided over the 25 grid points: the row-tiled windows (the summed neighbour features, the scale
    column, the node features, the output) are at row block t at point t; the weights and the bias stay at block 0. -/
theorem idx0_0 : ∀ t : Fin cfg0.N, win0_0.index t (0 : Fin 2) = t.val ∧ win0_0.index t (1 : Fin 2) = 0 :=
  (by decide +kernel : ∀ t : Fin grid0.N, _)
theorem idx0_1 : ∀ t : Fin cfg0.N, win0_1.index t (0 : Fin 2) = t.val ∧ win0_1.index t (1 : Fin 2) = 0 :=
  (by decide +kernel : ∀ t : Fin grid0.N, _)
theorem idx0_2 : ∀ t : Fin cfg0.N, win0_2.index t (0 : Fin 2) = t.val ∧ win0_2.index t (1 : Fin 2) = 0 :=
  (by decide +kernel : ∀ t : Fin grid0.N, _)
theorem idx0_3 : ∀ t : Fin cfg0.N, win0_3.index t (0 : Fin 2) = 0 ∧ win0_3.index t (1 : Fin 2) = 0 :=
  (by decide +kernel : ∀ t : Fin grid0.N, _)
theorem idx0_4 : ∀ t : Fin cfg0.N, win0_4.index t (0 : Fin 2) = 0 ∧ win0_4.index t (1 : Fin 2) = 0 :=
  (by decide +kernel : ∀ t : Fin grid0.N, _)
theorem idx0_5 : ∀ t : Fin cfg0.N, win0_5.index t (0 : Fin 2) = 0 ∧ win0_5.index t (1 : Fin 2) = 0 :=
  (by decide +kernel : ∀ t : Fin grid0.N, _)
theorem idx0_6 : ∀ t : Fin cfg0.N, win0_6.index t (0 : Fin 2) = t.val ∧ win0_6.index t (1 : Fin 2) = 0 :=
  (by decide +kernel : ∀ t : Fin grid0.N, _)

/-- Row p of point t's block is row 4000·t + p of a 100000-row array. -/
def row0 (t : Fin cfg0.N) (p : Fin 4000) : Fin 100000 :=
  ⟨t.val * 4000 + p.val, by
    have hN : cfg0.N = 25 := N_0
    have ht := t.isLt
    have hp := p.isLt
    omega⟩

/-- Window 0's block at point t: rows 4000·t … 4000·t + 3999 of its array. -/
theorem iblk0_0 (c : Dev nD) (t : Fin cfg0.N) (p : Fin 4000) (k : Fin 64) :
    (iblk0 V c 0 t : Vec Ideal S4000x64 .f32) (ix2 p k) = (V c main_v24 : S100000x64.Idx → EReal) (ix2 (row0 t p) k) := by
  obtain ⟨e0, e1⟩ := idx0_0 t
  unfold iblk0
  rw [View.read_apply]
  show V c main_v24 _ = V c main_v24 _
  refine congrArg (V c main_v24) (funext fun a => Fin.ext ?_)
  match a with
  | ⟨0, _⟩ => show win0_0.index t (0 : Fin 2) * 4000 + 1 * p.val = t.val * 4000 + p.val; rw [e0]; omega
  | ⟨1, _⟩ => show win0_0.index t (1 : Fin 2) * 64 + 1 * k.val = k.val; rw [e1]; omega

/-- Window 1's block at point t: rows 4000·t … 4000·t + 3999 of its array. -/
theorem iblk0_1 (c : Dev nD) (t : Fin cfg0.N) (p : Fin 4000) (k : Fin 1) :
    (iblk0 V c 1 t : Vec Ideal S4000x1 .f32) (ix2 p k) = (V c main_v12 : S100000x1.Idx → EReal) (ix2 (row0 t p) k) := by
  obtain ⟨e0, e1⟩ := idx0_1 t
  unfold iblk0
  rw [View.read_apply]
  show V c main_v12 _ = V c main_v12 _
  refine congrArg (V c main_v12) (funext fun a => Fin.ext ?_)
  match a with
  | ⟨0, _⟩ => show win0_1.index t (0 : Fin 2) * 4000 + 1 * p.val = t.val * 4000 + p.val; rw [e0]; omega
  | ⟨1, _⟩ => show win0_1.index t (1 : Fin 2) * 1 + 1 * k.val = k.val; rw [e1]; omega

/-- Window 2's block at point t: rows 4000·t … 4000·t + 3999 of its array. -/
theorem iblk0_2 (c : Dev nD) (t : Fin cfg0.N) (p : Fin 4000) (k : Fin 64) :
    (iblk0 V c 2 t : Vec Ideal S4000x64 .f32) (ix2 p k) = (V c main_arg0 : S100000x64.Idx → EReal) (ix2 (row0 t p) k) := by
  obtain ⟨e0, e1⟩ := idx0_2 t
  unfold iblk0
  rw [View.read_apply]
  show V c main_arg0 _ = V c main_arg0 _
  refine congrArg (V c main_arg0) (funext fun a => Fin.ext ?_)
  match a with
  | ⟨0, _⟩ => show win0_2.index t (0 : Fin 2) * 4000 + 1 * p.val = t.val * 4000 + p.val; rw [e0]; omega
  | ⟨1, _⟩ => show win0_2.index t (1 : Fin 2) * 64 + 1 * k.val = k.val; rw [e1]; omega

/-- Window 3's block at point t: its whole array, at every point. -/
theorem iblk0_3 (c : Dev nD) (t : Fin cfg0.N) (p : Fin 128) (k : Fin 64) :
    (iblk0 V c 3 t : Vec Ideal S128x64 .f32) (ix2 p k) = (V c main_arg2 : S128x64.Idx → EReal) (ix2 p k) := by
  obtain ⟨e0, e1⟩ := idx0_3 t
  unfold iblk0
  rw [View.read_apply]
  show V c main_arg2 _ = V c main_arg2 _
  refine congrArg (V c main_arg2) (funext fun a => Fin.ext ?_)
  match a with
  | ⟨0, _⟩ => show win0_3.index t (0 : Fin 2) * 128 + 1 * p.val = p.val; rw [e0]; omega
  | ⟨1, _⟩ => show win0_3.index t (1 : Fin 2) * 64 + 1 * k.val = k.val; rw [e1]; omega

/-- Window 4's block at point t: its whole array, at every point. -/
theorem iblk0_4 (c : Dev nD) (t : Fin cfg0.N) (p : Fin 1) (k : Fin 128) :
    (iblk0 V c 4 t : Vec Ideal S1x128 .f32) (ix2 p k) = (V c main_v25 : S1x128.Idx → EReal) (ix2 p k) := by
  obtain ⟨e0, e1⟩ := idx0_4 t
  unfold iblk0
  rw [View.read_apply]
  show V c main_v25 _ = V c main_v25 _
  refine congrArg (V c main_v25) (funext fun a => Fin.ext ?_)
  match a with
  | ⟨0, _⟩ => show win0_4.index t (0 : Fin 2) * 1 + 1 * p.val = p.val; rw [e0]; omega
  | ⟨1, _⟩ => show win0_4.index t (1 : Fin 2) * 128 + 1 * k.val = k.val; rw [e1]; omega

/-- Window 5's block at point t: its whole array, at every point. -/
theorem iblk0_5 (c : Dev nD) (t : Fin cfg0.N) (p : Fin 128) (k : Fin 64) :
    (iblk0 V c 5 t : Vec Ideal S128x64 .f32) (ix2 p k) = (V c main_arg3 : S128x64.Idx → EReal) (ix2 p k) := by
  obtain ⟨e0, e1⟩ := idx0_5 t
  unfold iblk0
  rw [View.read_apply]
  show V c main_arg3 _ = V c main_arg3 _
  refine congrArg (V c main_arg3) (funext fun a => Fin.ext ?_)
  match a with
  | ⟨0, _⟩ => show win0_5.index t (0 : Fin 2) * 128 + 1 * p.val = p.val; rw [e0]; omega
  | ⟨1, _⟩ => show win0_5.index t (1 : Fin 2) * 64 + 1 * k.val = k.val; rw [e1]; omega

/-- Where entry (p, q) of point t's output block lands in the output array. -/
theorem emb0_6 (t : Fin cfg0.N) (p : Fin 4000) (q : Fin 128) :
    (((cfg0.win 6).blk t).view.emb (ix2 p q) : S100000x128.Idx) = ix2 (row0 t p) q := by
  obtain ⟨e0, e1⟩ := idx0_6 t
  refine funext fun a => Fin.ext ?_
  match a with
  | ⟨0, _⟩ => show win0_6.index t (0 : Fin 2) * 4000 + 1 * p.val = t.val * 4000 + p.val; rw [e0]; omega
  | ⟨1, _⟩ => show win0_6.index t (1 : Fin 2) * 128 + 1 * q.val = q.val; rw [e1]; omega

/-- WHAT POINT t WRITES BACK is block t of the layer function of the arrays as the call finds them. -/
theorem flushed0_eq (c : Dev nD) (t : Fin cfg0.N) :
    (dat0 V c).flushed 6 t = ((cfg0.win 6).blk t).view.read (Elt Ideal)
      (Cert.Sage.relu 100000 64 128 (V c main_v24) (V c main_v12) (V c main_arg0) (V c main_arg2) (V c main_arg3) (V c main_v25)) := by
  show (cfg0.win 6).cut (grid0.coords t) ((dat0 V c).after 6 t) = _
  rw [after0_6]
  unfold out0_6
  rw [View.canon_unit_zero hz]
  simp only [View.ld_unit_zero (S := S4000x64) hz, View.ld_unit_zero (S := S128x64) hz, View.ld_unit_zero (S := S1x128) hz, View.ld_unit_zero (S := S4000x1) hz]
  refine funext fun (j : S4000x128.Idx) => ?_
  obtain ⟨p, q, rfl⟩ : ∃ (p : Fin 4000) (q : Fin 128), j = ix2 p q := ⟨j 0, j 1, eq_ix2 j⟩
  rw [View.read_apply, emb0_6]
  refine (Cert.KernelIdeal.SageBody.pay0_apply (iblk0 V c 0 t) (iblk0 V c 2 t) (iblk0 V c 3 t) (iblk0 V c 5 t) (iblk0 V c 4 t) (iblk0 V c 1 t) p q).trans ?_
  unfold Cert.Sage.relu Cert.Sage.pre
  simp only [iblk0_0, iblk0_1, iblk0_2, iblk0_3, iblk0_4, iblk0_5]
  rfl

/-- An index of the output array is in point t's block iff its row is among the block's 4000. -/
theorem mem_blk0 (t : Fin cfg0.N) (i : S100000x128.Idx) :
    i ∈ ((cfg0.win 6).blk t).view.set ↔ ∀ a : Fin 2, win0_6.index t a * S4000x128.size a ≤ (i a).val ∧ (i a).val < win0_6.index t a * S4000x128.size a + S4000x128.size a := by
  show i ∈ ((View.whole main_v26).slice (win0_6.rect t)).set ↔ _
  rw [View.set_slice_whole, Rect.mem_set_unit]
  exact Iff.rfl

/-- The 25 row blocks cover the output array: row r is in block r / 4000. -/
theorem cover0 (i : S100000x128.Idx) : ∃ t : Fin cfg0.N, (cfg0.win 6).flush t = true ∧ i ∈ ((cfg0.win 6).blk t).view.set := by
  have hi0 : (i 0).val < 100000 := (i 0).isLt
  have hi1 : (i 1).val < 128 := (i 1).isLt
  have hN : cfg0.N = 25 := N_0
  let t : Fin cfg0.N := ⟨(i 0).val / 4000, by omega⟩
  obtain ⟨e0, e1⟩ := idx0_6 t
  refine ⟨t, flush0_6 t, ?_⟩
  rw [mem_blk0]
  intro a
  match a with
  | ⟨0, _⟩ => show win0_6.index t (0 : Fin 2) * 4000 ≤ (i 0).val ∧ (i 0).val < win0_6.index t (0 : Fin 2) * 4000 + 4000
              rw [e0]; show (i 0).val / 4000 * 4000 ≤ (i 0).val ∧ (i 0).val < (i 0).val / 4000 * 4000 + 4000; omega
  | ⟨1, _⟩ => show win0_6.index t (1 : Fin 2) * 128 ≤ (i 1).val ∧ (i 1).val < win0_6.index t (1 : Fin 2) * 128 + 128
              rw [e1]; omega

/-- THE OUTPUT ARRAY after the call: the layer function of the arrays as the call finds them. -/
theorem final0 (c : Dev nD) : (dat0 V c).arrAt 6 cfg0.N
    = Cert.Sage.relu 100000 64 128 (V c main_v24) (V c main_v12) (V c main_arg0) (V c main_arg2) (V c main_arg3) (V c main_v25) :=
  (dat0 V c).arrAt_eq_of_cover 6 _ (fun t _ => flushed0_eq V c t) (cover0)

/-! ## Call 1: 128 input features, 64 output features -/

/-- The index maps, decided over the 25 grid points: the row-tiled windows (the summed neighbour features, the scale
    column, the node features, the output) are at row block t at point t; the weights and the bias stay at block 0. -/
theorem idx1_0 : ∀ t : Fin cfg1.N, win1_0.index t (0 : Fin 2) = t.val ∧ win1_0.index t (1 : Fin 2) = 0 :=
  (by decide +kernel : ∀ t : Fin grid1.N, _)
theorem idx1_1 : ∀ t : Fin cfg1.N, win1_1.index t (0 : Fin 2) = t.val ∧ win1_1.index t (1 : Fin 2) = 0 :=
  (by decide +kernel : ∀ t : Fin grid1.N, _)
theorem idx1_2 : ∀ t : Fin cfg1.N, win1_2.index t (0 : Fin 2) = t.val ∧ win1_2.index t (1 : Fin 2) = 0 :=
  (by decide +kernel : ∀ t : Fin grid1.N, _)
theorem idx1_3 : ∀ t : Fin cfg1.N, win1_3.index t (0 : Fin 2) = 0 ∧ win1_3.index t (1 : Fin 2) = 0 :=
  (by decide +kernel : ∀ t : Fin grid1.N, _)
theorem idx1_4 : ∀ t : Fin cfg1.N, win1_4.index t (0 : Fin 2) = 0 ∧ win1_4.index t (1 : Fin 2) = 0 :=
  (by decide +kernel : ∀ t : Fin grid1.N, _)
theorem idx1_5 : ∀ t : Fin cfg1.N, win1_5.index t (0 : Fin 2) = 0 ∧ win1_5.index t (1 : Fin 2) = 0 :=
  (by decide +kernel : ∀ t : Fin grid1.N, _)
theorem idx1_6 : ∀ t : Fin cfg1.N, win1_6.index t (0 : Fin 2) = t.val ∧ win1_6.index t (1 : Fin 2) = 0 :=
  (by decide +kernel : ∀ t : Fin grid1.N, _)

/-- Row p of point t's block is row 4000·t + p of a 100000-row array. -/
def row1 (t : Fin cfg1.N) (p : Fin 4000) : Fin 100000 :=
  ⟨t.val * 4000 + p.val, by
    have hN : cfg1.N = 25 := N_1
    have ht := t.isLt
    have hp := p.isLt
    omega⟩

/-- Window 0's block at point t: rows 4000·t … 4000·t + 3999 of its array. -/
theorem iblk1_0 (c : Dev nD) (t : Fin cfg1.N) (p : Fin 4000) (k : Fin 128) :
    (iblk1 V c 0 t : Vec Ideal S4000x128 .f32) (ix2 p k) = (V c main_v38 : S100000x128.Idx → EReal) (ix2 (row1 t p) k) := by
  obtain ⟨e0, e1⟩ := idx1_0 t
  unfold iblk1
  rw [View.read_apply]
  show V c main_v38 _ = V c main_v38 _
  refine congrArg (V c main_v38) (funext fun a => Fin.ext ?_)
  match a with
  | ⟨0, _⟩ => show win1_0.index t (0 : Fin 2) * 4000 + 1 * p.val = t.val * 4000 + p.val; rw [e0]; omega
  | ⟨1, _⟩ => show win1_0.index t (1 : Fin 2) * 128 + 1 * k.val = k.val; rw [e1]; omega

/-- Window 1's block at point t: rows 4000·t … 4000·t + 3999 of its array. -/
theorem iblk1_1 (c : Dev nD) (t : Fin cfg1.N) (p : Fin 4000) (k : Fin 1) :
    (iblk1 V c 1 t : Vec Ideal S4000x1 .f32) (ix2 p k) = (V c main_v12 : S100000x1.Idx → EReal) (ix2 (row1 t p) k) := by
  obtain ⟨e0, e1⟩ := idx1_1 t
  unfold iblk1
  rw [View.read_apply]
  show V c main_v12 _ = V c main_v12 _
  refine congrArg (V c main_v12) (funext fun a => Fin.ext ?_)
  match a with
  | ⟨0, _⟩ => show win1_1.index t (0 : Fin 2) * 4000 + 1 * p.val = t.val * 4000 + p.val; rw [e0]; omega
  | ⟨1, _⟩ => show win1_1.index t (1 : Fin 2) * 1 + 1 * k.val = k.val; rw [e1]; omega

/-- Window 2's block at point t: rows 4000·t … 4000·t + 3999 of its array. -/
theorem iblk1_2 (c : Dev nD) (t : Fin cfg1.N) (p : Fin 4000) (k : Fin 128) :
    (iblk1 V c 2 t : Vec Ideal S4000x128 .f32) (ix2 p k) = (V c main_v26 : S100000x128.Idx → EReal) (ix2 (row1 t p) k) := by
  obtain ⟨e0, e1⟩ := idx1_2 t
  unfold iblk1
  rw [View.read_apply]
  show V c main_v26 _ = V c main_v26 _
  refine congrArg (V c main_v26) (funext fun a => Fin.ext ?_)
  match a with
  | ⟨0, _⟩ => show win1_2.index t (0 : Fin 2) * 4000 + 1 * p.val = t.val * 4000 + p.val; rw [e0]; omega
  | ⟨1, _⟩ => show win1_2.index t (1 : Fin 2) * 128 + 1 * k.val = k.val; rw [e1]; omega

/-- Window 3's block at point t: its whole array, at every point. -/
theorem iblk1_3 (c : Dev nD) (t : Fin cfg1.N) (p : Fin 64) (k : Fin 128) :
    (iblk1 V c 3 t : Vec Ideal S64x128 .f32) (ix2 p k) = (V c main_arg5 : S64x128.Idx → EReal) (ix2 p k) := by
  obtain ⟨e0, e1⟩ := idx1_3 t
  unfold iblk1
  rw [View.read_apply]
  show V c main_arg5 _ = V c main_arg5 _
  refine congrArg (V c main_arg5) (funext fun a => Fin.ext ?_)
  match a with
  | ⟨0, _⟩ => show win1_3.index t (0 : Fin 2) * 64 + 1 * p.val = p.val; rw [e0]; omega
  | ⟨1, _⟩ => show win1_3.index t (1 : Fin 2) * 128 + 1 * k.val = k.val; rw [e1]; omega

/-- Window 4's block at point t: its whole array, at every point. -/
theorem iblk1_4 (c : Dev nD) (t : Fin cfg1.N) (p : Fin 1) (k : Fin 64) :
    (iblk1 V c 4 t : Vec Ideal S1x64 .f32) (ix2 p k) = (V c main_v39 : S1x64.Idx → EReal) (ix2 p k) := by
  obtain ⟨e0, e1⟩ := idx1_4 t
  unfold iblk1
  rw [View.read_apply]
  show V c main_v39 _ = V c main_v39 _
  refine congrArg (V c main_v39) (funext fun a => Fin.ext ?_)
  match a with
  | ⟨0, _⟩ => show win1_4.index t (0 : Fin 2) * 1 + 1 * p.val = p.val; rw [e0]; omega
  | ⟨1, _⟩ => show win1_4.index t (1 : Fin 2) * 64 + 1 * k.val = k.val; rw [e1]; omega

/-- Window 5's block at point t: its whole array, at every point. -/
theorem iblk1_5 (c : Dev nD) (t : Fin cfg1.N) (p : Fin 64) (k : Fin 128) :
    (iblk1 V c 5 t : Vec Ideal S64x128 .f32) (ix2 p k) = (V c main_arg6 : S64x128.Idx → EReal) (ix2 p k) := by
  obtain ⟨e0, e1⟩ := idx1_5 t
  unfold iblk1
  rw [View.read_apply]
  show V c main_arg6 _ = V c main_arg6 _
  refine congrArg (V c main_arg6) (funext fun a => Fin.ext ?_)
  match a with
  | ⟨0, _⟩ => show win1_5.index t (0 : Fin 2) * 64 + 1 * p.val = p.val; rw [e0]; omega
  | ⟨1, _⟩ => show win1_5.index t (1 : Fin 2) * 128 + 1 * k.val = k.val; rw [e1]; omega

/-- Where entry (p, q) of point t's output block lands in the output array. -/
theorem emb1_6 (t : Fin cfg1.N) (p : Fin 4000) (q : Fin 64) :
    (((cfg1.win 6).blk t).view.emb (ix2 p q) : S100000x64.Idx) = ix2 (row1 t p) q := by
  obtain ⟨e0, e1⟩ := idx1_6 t
  refine funext fun a => Fin.ext ?_
  match a with
  | ⟨0, _⟩ => show win1_6.index t (0 : Fin 2) * 4000 + 1 * p.val = t.val * 4000 + p.val; rw [e0]; omega
  | ⟨1, _⟩ => show win1_6.index t (1 : Fin 2) * 64 + 1 * q.val = q.val; rw [e1]; omega

/-- WHAT POINT t WRITES BACK is block t of the layer function of the arrays as the call finds them. -/
theorem flushed1_eq (c : Dev nD) (t : Fin cfg1.N) :
    (dat1 V c).flushed 6 t = ((cfg1.win 6).blk t).view.read (Elt Ideal)
      (Cert.Sage.sigmoid 100000 128 64 (V c main_v38) (V c main_v12) (V c main_v26) (V c main_arg5) (V c main_arg6) (V c main_v39)) := by
  show (cfg1.win 6).cut (grid1.coords t) ((dat1 V c).after 6 t) = _
  rw [after1_6]
  unfold out1_6
  rw [View.canon_unit_zero hz]
  simp only [View.ld_unit_zero (S := S4000x128) hz, View.ld_unit_zero (S := S64x128) hz, View.ld_unit_zero (S := S1x64) hz, View.ld_unit_zero (S := S4000x1) hz]
  refine funext fun (j : S4000x64.Idx) => ?_
  obtain ⟨p, q, rfl⟩ : ∃ (p : Fin 4000) (q : Fin 64), j = ix2 p q := ⟨j 0, j 1, eq_ix2 j⟩
  rw [View.read_apply, emb1_6]
  refine (Cert.KernelIdeal.SageBody.pay1_apply (iblk1 V c 0 t) (iblk1 V c 2 t) (iblk1 V c 3 t) (iblk1 V c 5 t) (iblk1 V c 4 t) (iblk1 V c 1 t) p q).trans ?_
  unfold Cert.Sage.sigmoid Cert.Sage.pre
  simp only [iblk1_0, iblk1_1, iblk1_2, iblk1_3, iblk1_4, iblk1_5]
  rfl

/-- An index of the output array is in point t's block iff its row is among the block's 4000. -/
theorem mem_blk1 (t : Fin cfg1.N) (i : S100000x64.Idx) :
    i ∈ ((cfg1.win 6).blk t).view.set ↔ ∀ a : Fin 2, win1_6.index t a * S4000x64.size a ≤ (i a).val ∧ (i a).val < win1_6.index t a * S4000x64.size a + S4000x64.size a := by
  show i ∈ ((View.whole main_v40).slice (win1_6.rect t)).set ↔ _
  rw [View.set_slice_whole, Rect.mem_set_unit]
  exact Iff.rfl

/-- The 25 row blocks cover the output array: row r is in block r / 4000. -/
theorem cover1 (i : S100000x64.Idx) : ∃ t : Fin cfg1.N, (cfg1.win 6).flush t = true ∧ i ∈ ((cfg1.win 6).blk t).view.set := by
  have hi0 : (i 0).val < 100000 := (i 0).isLt
  have hi1 : (i 1).val < 64 := (i 1).isLt
  have hN : cfg1.N = 25 := N_1
  let t : Fin cfg1.N := ⟨(i 0).val / 4000, by omega⟩
  obtain ⟨e0, e1⟩ := idx1_6 t
  refine ⟨t, flush1_6 t, ?_⟩
  rw [mem_blk1]
  intro a
  match a with
  | ⟨0, _⟩ => show win1_6.index t (0 : Fin 2) * 4000 ≤ (i 0).val ∧ (i 0).val < win1_6.index t (0 : Fin 2) * 4000 + 4000
              rw [e0]; show (i 0).val / 4000 * 4000 ≤ (i 0).val ∧ (i 0).val < (i 0).val / 4000 * 4000 + 4000; omega
  | ⟨1, _⟩ => show win1_6.index t (1 : Fin 2) * 64 ≤ (i 1).val ∧ (i 1).val < win1_6.index t (1 : Fin 2) * 64 + 64
              rw [e1]; omega

/-- THE OUTPUT ARRAY after the call: the layer function of the arrays as the call finds them. -/
theorem final1 (c : Dev nD) : (dat1 V c).arrAt 6 cfg1.N
    = Cert.Sage.sigmoid 100000 128 64 (V c main_v38) (V c main_v12) (V c main_v26) (V c main_arg5) (V c main_arg6) (V c main_v39) :=
  (dat1 V c).arrAt_eq_of_cover 6 _ (fun t _ => flushed1_eq V c t) (cover1)

end Cert.KernelIdeal.SageBlocks

end
-- ==== Proof.HostGlue.lean ====
/-
  The host-side pieces both programs compute around the dense layers, named once, as functions of the argument
  arrays on the extended reals.

  edge_index holds a source row and a destination row. Each program slices the two rows out, wraps a negative
  source index by the node count (jnp's indexing convention), gathers the source nodes' feature rows, and
  scatter-adds them into a zero array at the destination nodes: the per-node SUM of the neighbours' features.
  Scatter-adding ones the same way counts each node's in-degree; the scale column is 1 over that count clamped
  below at 1. The bias vectors are reshaped to one-row matrices. Nothing is said here about what a gather or a
  scatter-add of particular indices returns: both programs apply the same operations to the same operands, and that
  is all the comparison uses. The kernel program's conversions of the gathered features to bf16 and back are the
  identity on the extended reals and do not appear.
-/
import proofs.«130020_j47115791237141_2_alg».proof.Proof.Gen.KernelIdeal
import Idealize.ShloMosaic.PureOps.Ideal
import proofs.«130020_j47115791237141_2_alg».proof.Proof.Layers

noncomputable section

namespace Cert.KernelIdeal.SageHost

open Cert.KernelIdeal Cert.KernelIdeal.Facts₀ Cert.KernelIdeal.Facts Idealize.ShloMosaic

/-- Row 0 of edge_index: every edge's source node. -/
def srcRow (ei : (⟨S2x1600000, .i32⟩ : BufTy).Contents (Elt Ideal)) : (⟨S1600000, .i32⟩ : BufTy).Contents (Elt Ideal) :=
  shapeCast _ (extractStridedSlice S1x1600000 ![0, 0] ei slices_S2x1600000_S1x1600000_0_0) shapeCasts_S1x1600000_S1600000

/-- Row 1 of edge_index: every edge's destination node. -/
def dstRow (ei : (⟨S2x1600000, .i32⟩ : BufTy).Contents (Elt Ideal)) : (⟨S1600000, .i32⟩ : BufTy).Contents (Elt Ideal) :=
  shapeCast _ (extractStridedSlice S1x1600000 ![1, 0] ei slices_S2x1600000_S1x1600000_1_0) shapeCasts_S1x1600000_S1600000

/-- The source nodes as a column of gather indices, a negative index wrapped by the node count. -/
def srcIdx (ei : (⟨S2x1600000, .i32⟩ : BufTy).Contents (Elt Ideal)) : (⟨S1600000x1, .i32⟩ : BufTy).Contents (Elt Ideal) :=
  broadcastInDim S1600000x1 ![0] bcast_S1600000_S1600000x1_0
    (select (cmpi .slt (srcRow ei) (broadcastInDim S1600000 ![] bcast_S_S1600000 (constantI S_ 32 0#32)))
      (addi (srcRow ei) (broadcastInDim S1600000 ![] bcast_S_S1600000 (constantI S_ 32 100000#32)))
      (srcRow ei))

/-- The destination nodes as a column of scatter indices. -/
def dstIdx (ei : (⟨S2x1600000, .i32⟩ : BufTy).Contents (Elt Ideal)) : (⟨S1600000x1, .i32⟩ : BufTy).Contents (Elt Ideal) :=
  broadcastInDim S1600000x1 ![0] bcast_S1600000_S1600000x1_0 (dstRow ei)

/-- Each node's in-degree: ones scatter-added at the destinations. -/
def degree (ei : (⟨S2x1600000, .i32⟩ : BufTy).Contents (Elt Ideal)) : (⟨S100000, .f32⟩ : BufTy).Contents (Elt Ideal) :=
  Host.scatterAdd scatter_S100000_S1600000x1_S1600000_n_0_0_1
    (broadcastInDim S100000 ![] bcast_S_S100000 (constant (F := Ideal) S_ .f32 0x00000000#32))
    (dstIdx ei)
    (broadcastInDim S1600000 ![] bcast_S_S1600000 (constant (F := Ideal) S_ .f32 0x3F800000#32))

/-- The in-degree clamped below at 1. -/
def clampedDegree (ei : (⟨S2x1600000, .i32⟩ : BufTy).Contents (Elt Ideal)) : (⟨S100000, .f32⟩ : BufTy).Contents (Elt Ideal) :=
  maximumf (degree ei) (broadcastInDim S100000 ![] bcast_S_S100000 (constant (F := Ideal) S_ .f32 0x3F800000#32))

/-- The scale column: 1 over the clamped in-degree. -/
def scale (ei : (⟨S2x1600000, .i32⟩ : BufTy).Contents (Elt Ideal)) : (⟨S100000x1, .f32⟩ : BufTy).Contents (Elt Ideal) :=
  shapeCast _ (Host.divf (F := Ideal) (broadcastInDim S100000 ![] bcast_S_S100000 (constant (F := Ideal) S_ .f32 0x3F800000#32)) (clampedDegree ei))
    shapeCasts_S100000_S100000x1

/-- The neighbours' 64-feature rows summed per node. -/
def agg64 (x : (⟨S100000x64, .f32⟩ : BufTy).Contents (Elt Ideal)) (ei : (⟨S2x1600000, .i32⟩ : BufTy).Contents (Elt Ideal)) :
    (⟨S100000x64, .f32⟩ : BufTy).Contents (Elt Ideal) :=
  Host.scatterAdd scatter_S100000x64_S1600000x1_S1600000x64_1_0_0_1
    (broadcastInDim S100000x64 ![] bcast_S_S100000x64 (constant (F := Ideal) S_ .f32 0x00000000#32))
    (dstIdx ei)
    (Host.gather gather_S100000x64_S1600000x1_S1600000x64_1_0_n_n_0_1_164 x (srcIdx ei))

/-- The neighbours' 128-feature rows summed per node. -/
def agg128 (h : (⟨S100000x128, .f32⟩ : BufTy).Contents (Elt Ideal)) (ei : (⟨S2x1600000, .i32⟩ : BufTy).Contents (Elt Ideal)) :
    (⟨S100000x128, .f32⟩ : BufTy).Contents (Elt Ideal) :=
  Host.scatterAdd scatter_S100000x128_S1600000x1_S1600000x128_1_0_0_1
    (broadcastInDim S100000x128 ![] bcast_S_S100000x128 (constant (F := Ideal) S_ .f32 0x00000000#32))
    (dstIdx ei)
    (Host.gather gather_S100000x128_S1600000x1_S1600000x128_1_0_n_n_0_1_1128 h (srcIdx ei))

/-- The first layer's bias as a one-row matrix. -/
def bias1 (b : (⟨S128, .f32⟩ : BufTy).Contents (Elt Ideal)) : (⟨S1x128, .f32⟩ : BufTy).Contents (Elt Ideal) :=
  shapeCast _ b shapeCasts_S128_S1x128

/-- The second layer's bias as a one-row matrix. -/
def bias2 (b : (⟨S64, .f32⟩ : BufTy).Contents (Elt Ideal)) : (⟨S1x64, .f32⟩ : BufTy).Contents (Elt Ideal) :=
  shapeCast _ b shapeCasts_S64_S1x64

/-! ## The network -/

/-- The hidden features: the first layer over the summed neighbour features, clamped below at 0. -/
def hidden (x : (⟨S100000x64, .f32⟩ : BufTy).Contents (Elt Ideal)) (ei : (⟨S2x1600000, .i32⟩ : BufTy).Contents (Elt Ideal))
    (W1l W1r : (⟨S128x64, .f32⟩ : BufTy).Contents (Elt Ideal)) (b1 : (⟨S128, .f32⟩ : BufTy).Contents (Elt Ideal)) :
    (⟨S100000x128, .f32⟩ : BufTy).Contents (Elt Ideal) :=
  Cert.Sage.relu 100000 64 128 (agg64 x ei) (scale ei) x W1l W1r (bias1 b1)

/-- The network's output: the second layer over the hidden features and their per-node neighbour sums, through the
    logistic function. -/
def network (x : (⟨S100000x64, .f32⟩ : BufTy).Contents (Elt Ideal)) (ei : (⟨S2x1600000, .i32⟩ : BufTy).Contents (Elt Ideal))
    (W1l W1r : (⟨S128x64, .f32⟩ : BufTy).Contents (Elt Ideal)) (b1 : (⟨S128, .f32⟩ : BufTy).Contents (Elt Ideal))
    (W2l W2r : (⟨S64x128, .f32⟩ : BufTy).Contents (Elt Ideal)) (b2 : (⟨S64, .f32⟩ : BufTy).Contents (Elt Ideal)) :
    (⟨S100000x64, .f32⟩ : BufTy).Contents (Elt Ideal) :=
  Cert.Sage.sigmoid 100000 128 64 (agg128 (hidden x ei W1l W1r b1) ei) (scale ei) (hidden x ei W1l W1r b1) W2l W2r (bias2 b2)

end Cert.KernelIdeal.SageHost

end
-- ==== Proof.KernelValue.lean ====
/-
  The kernel program's result array as one function of the eight argument arrays.

  The generated frame module folds the TensorCore's buffer contents through @main's four segments. Read backwards
  from the last boundary: the result array is what the second call's write-backs leave, the logistic layer of that
  call's entry contents; those are the second host stretch's results over what the first call left — the summed
  neighbour rows of the FIRST call's output array, the scale column and the edge rows untouched since the first
  stretch, the second layer's weights and bias as launched —; the first call's output array is the clamped layer
  of its own entry contents, which the first host stretch computes from the launch memory. Composed, the result
  array is the network function of HostGlue.lean at the arguments as launched.
-/
import proofs.«130020_j47115791237141_2_alg».proof.Proof.Gen.KernelIdeal.Frame
import proofs.«130020_j47115791237141_2_alg».proof.Proof.KernelBlocks
import proofs.«130020_j47115791237141_2_alg».proof.Proof.HostGlue
import Idealize.ShloMosaic.Lib.StableHlo.Run

set_option maxRecDepth 16384

noncomputable section

namespace Cert.KernelIdeal.SageValue

open Cert.KernelIdeal Cert.KernelIdeal.Gen Cert.KernelIdeal.SageHost
open Idealize.ShloMosaic Idealize.ShloMosaic.TcCoe Idealize.SL.Sem Idealize.ShloMosaic.StableHlo

variable (m : (ℓ : Loc nD τ sig) → Buf (Elt Ideal) ℓ) (ρ : Dev nD → PrngReg)

/-! ## The first call's entry contents: the first host stretch from the launch memory -/

theorem V1_v1 (c : Dev nD) : W1 m ρ c (Proc.devRef .tc main_v1) = srcRow (m ((c : Thread nD τ).loc main_arg1)) := by
  show StableHlo.after hostOps0 (W0 m ρ c) (Proc.devRef .tc main_v1) = _
  after_results_simp
  rfl
theorem V1_v3 (c : Dev nD) : W1 m ρ c (Proc.devRef .tc main_v3) = dstRow (m ((c : Thread nD τ).loc main_arg1)) := by
  show StableHlo.after hostOps0 (W0 m ρ c) (Proc.devRef .tc main_v3) = _
  after_results_simp
  rfl
theorem V1_v24 (c : Dev nD) : V1 m ρ c main_v24 = agg64 (m ((c : Thread nD τ).loc main_arg0)) (m ((c : Thread nD τ).loc main_arg1)) := by
  show StableHlo.after hostOps0 (W0 m ρ c) (Proc.devRef .tc main_v24) = _
  after_results_simp
  rfl
theorem V1_v12 (c : Dev nD) : V1 m ρ c main_v12 = scale (m ((c : Thread nD τ).loc main_arg1)) := by
  show StableHlo.after hostOps0 (W0 m ρ c) (Proc.devRef .tc main_v12) = _
  after_results_simp
  rfl
theorem V1_v25 (c : Dev nD) : V1 m ρ c main_v25 = bias1 (m ((c : Thread nD τ).loc main_arg4)) := by
  show StableHlo.after hostOps0 (W0 m ρ c) (Proc.devRef .tc main_v25) = _
  after_results_simp
  rfl
theorem V1_arg0 (c : Dev nD) : W1 m ρ c (Proc.devRef .tc main_arg0) = (m ((c : Thread nD τ).loc main_arg0)) := by
  show StableHlo.after hostOps0 (W0 m ρ c) (Proc.devRef .tc main_arg0) = _
  after_results_simp
theorem V1_arg2 (c : Dev nD) : W1 m ρ c (Proc.devRef .tc main_arg2) = (m ((c : Thread nD τ).loc main_arg2)) := by
  show StableHlo.after hostOps0 (W0 m ρ c) (Proc.devRef .tc main_arg2) = _
  after_results_simp
theorem V1_arg3 (c : Dev nD) : W1 m ρ c (Proc.devRef .tc main_arg3) = (m ((c : Thread nD τ).loc main_arg3)) := by
  show StableHlo.after hostOps0 (W0 m ρ c) (Proc.devRef .tc main_arg3) = _
  after_results_simp
theorem V1_arg5 (c : Dev nD) : W1 m ρ c (Proc.devRef .tc main_arg5) = (m ((c : Thread nD τ).loc main_arg5)) := by
  show StableHlo.after hostOps0 (W0 m ρ c) (Proc.devRef .tc main_arg5) = _
  after_results_simp
theorem V1_arg6 (c : Dev nD) : W1 m ρ c (Proc.devRef .tc main_arg6) = (m ((c : Thread nD τ).loc main_arg6)) := by
  show StableHlo.after hostOps0 (W0 m ρ c) (Proc.devRef .tc main_arg6) = _
  after_results_simp
theorem V1_arg7 (c : Dev nD) : W1 m ρ c (Proc.devRef .tc main_arg7) = (m ((c : Thread nD τ).loc main_arg7)) := by
  show StableHlo.after hostOps0 (W0 m ρ c) (Proc.devRef .tc main_arg7) = _
  after_results_simp

/-! ## Between the calls: what the first call leaves, and what it does not touch -/

/-- The first call's output array: the hidden features. -/
theorem W2_v26 (c : Dev nD) : W2 m ρ c (Proc.devRef .tc main_v26) = hidden (m ((c : Thread nD τ).loc main_arg0)) (m ((c : Thread nD τ).loc main_arg1)) (m ((c : Thread nD τ).loc main_arg2)) (m ((c : Thread nD τ).loc main_arg3)) (m ((c : Thread nD τ).loc main_arg4)) := by
  refine (W2_arr m ρ c 6).trans ?_
  rw [SageBlocks.final0 (V1 m ρ) c, V1_v24 m ρ c, V1_v12 m ρ c, V1_v25 m ρ c]
  show Cert.Sage.relu 100000 64 128 _ _ (W1 m ρ c (Proc.devRef .tc main_arg0)) (W1 m ρ c (Proc.devRef .tc main_arg2)) (W1 m ρ c (Proc.devRef .tc main_arg3)) _ = _
  rw [V1_arg0 m ρ c, V1_arg2 m ρ c, V1_arg3 m ρ c]
  rfl
/-- The scale column is an input of the first call: left as entered. -/
theorem W2_v12 (c : Dev nD) : W2 m ρ c (Proc.devRef .tc main_v12) = scale (m ((c : Thread nD τ).loc main_arg1)) :=
  (W2_arr m ρ c 1).trans (((dat0 (V1 m ρ) c).arrAt_in 1 rfl _).trans ((A_eq0 (V1 m ρ) c 1).trans (V1_v12 m ρ c)))
/-- The sliced edge rows and the second layer's parameters are no array of the first call: left as entered. -/
theorem W2_v1 (c : Dev nD) : W2 m ρ c (Proc.devRef .tc main_v1) = srcRow (m ((c : Thread nD τ).loc main_arg1)) :=
  (W2_of_ne m ρ c main_v1 (by decide)).trans (V1_v1 m ρ c)
theorem W2_v3 (c : Dev nD) : W2 m ρ c (Proc.devRef .tc main_v3) = dstRow (m ((c : Thread nD τ).loc main_arg1)) :=
  (W2_of_ne m ρ c main_v3 (by decide)).trans (V1_v3 m ρ c)
theorem W2_arg5 (c : Dev nD) : W2 m ρ c (Proc.devRef .tc main_arg5) = (m ((c : Thread nD τ).loc main_arg5)) :=
  (W2_of_ne m ρ c main_arg5 (by decide)).trans (V1_arg5 m ρ c)
theorem W2_arg6 (c : Dev nD) : W2 m ρ c (Proc.devRef .tc main_arg6) = (m ((c : Thread nD τ).loc main_arg6)) :=
  (W2_of_ne m ρ c main_arg6 (by decide)).trans (V1_arg6 m ρ c)
theorem W2_arg7 (c : Dev nD) : W2 m ρ c (Proc.devRef .tc main_arg7) = (m ((c : Thread nD τ).loc main_arg7)) :=
  (W2_of_ne m ρ c main_arg7 (by decide)).trans (V1_arg7 m ρ c)

/-! ## The second call's entry contents: the second host stretch from there -/

/-- Gathering rows through bf16 and back is gathering them: a change of float format is the identity on the
    extended reals. -/
theorem gather128_cast (H : (⟨S100000x128, .f32⟩ : BufTy).Contents (Elt Ideal)) (idx : (⟨S1600000x1, .i32⟩ : BufTy).Contents (Elt Ideal)) :
    (extf .f32 (Host.gather gather_S100000x128_S1600000x1_S1600000x128_1_0_n_n_0_1_1128 (truncf .bf16 H bitsLt_bf16_f32 : FVec Ideal S100000x128 .bf16) idx) bitsLt_bf16_f32 : FVec Ideal S1600000x128 .f32)
      = Host.gather gather_S100000x128_S1600000x1_S1600000x128_1_0_n_n_0_1_1128 H idx := rfl

/-- The second call's summed-neighbour window: the second gather and scatter-add, over the hidden features. The
    contents between the calls, the hidden array and the edge array are made variables first: the operations' results
    are then read off the list of operations alone. -/
theorem V3_v38 (c : Dev nD) : V3 m ρ c main_v38 = agg128 (hidden (m ((c : Thread nD τ).loc main_arg0)) (m ((c : Thread nD τ).loc main_arg1)) (m ((c : Thread nD τ).loc main_arg2)) (m ((c : Thread nD τ).loc main_arg3)) (m ((c : Thread nD τ).loc main_arg4))) (m ((c : Thread nD τ).loc main_arg1)) := by
  show StableHlo.after hostOps1 (W2 m ρ c) (Proc.devRef .tc main_v38) = _
  have h1 := W2_v1 m ρ c
  have h3 := W2_v3 m ρ c
  have h26 := W2_v26 m ρ c
  generalize W2 m ρ c = Wv at h1 h3 h26 ⊢
  generalize hidden (m ((c : Thread nD τ).loc main_arg0)) (m ((c : Thread nD τ).loc main_arg1)) (m ((c : Thread nD τ).loc main_arg2)) (m ((c : Thread nD τ).loc main_arg3)) (m ((c : Thread nD τ).loc main_arg4)) = H at h26 ⊢
  generalize (m ((c : Thread nD τ).loc main_arg1)) = ei at h1 h3 ⊢
  after_results_simp
  rw [h1, h3, h26, gather128_cast]
  unfold agg128 dstIdx srcIdx
  rfl

theorem V3_v12 (c : Dev nD) : V3 m ρ c main_v12 = scale (m ((c : Thread nD τ).loc main_arg1)) := by
  show StableHlo.after hostOps1 (W2 m ρ c) (Proc.devRef .tc main_v12) = _
  after_results
  exact W2_v12 m ρ c
theorem V3_v26 (c : Dev nD) : V3 m ρ c main_v26 = hidden (m ((c : Thread nD τ).loc main_arg0)) (m ((c : Thread nD τ).loc main_arg1)) (m ((c : Thread nD τ).loc main_arg2)) (m ((c : Thread nD τ).loc main_arg3)) (m ((c : Thread nD τ).loc main_arg4)) := by
  show StableHlo.after hostOps1 (W2 m ρ c) (Proc.devRef .tc main_v26) = _
  after_results
  exact W2_v26 m ρ c
theorem V3_arg5 (c : Dev nD) : V3 m ρ c main_arg5 = (m ((c : Thread nD τ).loc main_arg5)) := by
  show StableHlo.after hostOps1 (W2 m ρ c) (Proc.devRef .tc main_arg5) = _
  after_results
  exact W2_arg5 m ρ c
theorem V3_arg6 (c : Dev nD) : V3 m ρ c main_arg6 = (m ((c : Thread nD τ).loc main_arg6)) := by
  show StableHlo.after hostOps1 (W2 m ρ c) (Proc.devRef .tc main_arg6) = _
  after_results
  exact W2_arg6 m ρ c
theorem V3_v39 (c : Dev nD) : V3 m ρ c main_v39 = bias2 (m ((c : Thread nD τ).loc main_arg7)) := by
  show StableHlo.after hostOps1 (W2 m ρ c) (Proc.devRef .tc main_v39) = _
  after_results
  rw [W2_arg7 m ρ c]
  rfl

/-! ## The result -/

/-- THE RESULT ARRAY at the last boundary is the network's output of the eight argument arrays as launched. -/
theorem result_eq (c : Dev nD) : W4 m ρ c (Proc.devRef .tc main_v40)
    = network (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (W4_arr m ρ c 6).trans ?_
  rw [SageBlocks.final1 (V3 m ρ) c, V3_v38 m ρ c, V3_v12 m ρ c, V3_v26 m ρ c, V3_arg5 m ρ c, V3_arg6 m ρ c, V3_v39 m ρ c]
  rfl

end Cert.KernelIdeal.SageValue

end
-- ==== Proof.ScaleLaw.lean ====
/-
  The one algebraic law this certificate rests on, on the extended reals, with no program in sight.

  A mean-aggregating graph layer divides each node's summed neighbour features by the node's clamped degree
  d = max(deg, 1) and then applies a linear map. One program divides every summed feature first and contracts
  afterwards, sum over k of (a k / d) * w k; the other contracts first and scales the finished row sum by the
  reciprocal, (sum over k of a k * w k) * (1 / d). On the extended reals these agree for EVERY a, w and deg:
  d is at least 1, so it is not zero and the quotient by it is the product with its inverse; the inverse of an
  extended real is always a real number, here a nonnegative one, and multiplication by a nonnegative factor other
  than +infinity distributes over any sum of extended reals, infinite summands included. Nothing has to be finite.
-/
import Mathlib.Data.EReal.Inv
import Idealize.ShloMosaic.PureOps.Ideal
import Idealize.ShloMosaic.PureOps.Ideal.Laws

noncomputable section

namespace Cert.SageLaw

open Idealize.ShloMosaic

/-- The float pattern of 1.0 denotes the extended real 1. -/
theorem ofBits_one : Ideal.ofBits .f32 0x3F800000#32 = 1 := by
  simp [Ideal.ofBits, Ideal.ieee, -EReal.coe_mul]; norm_num

/-- A nonnegative factor other than +infinity may be taken inside a finite sum of extended reals. -/
theorem sum_mul_of_nonneg_ne_top {ι : Type} (s : Finset ι) (f : ι → EReal) {c : EReal} (h0 : 0 ≤ c) (ht : c ≠ ⊤) :
    (∑ k ∈ s, f k) * c = ∑ k ∈ s, f k * c := by
  classical
  induction s using Finset.induction_on with
  | empty => simp
  | insert a s ha ih =>
    rw [Finset.sum_insert ha, Finset.sum_insert ha, EReal.right_distrib_of_nonneg_of_ne_top h0 ht, ih]

/-- The clamped degree is never zero. -/
theorem max_one_ne_zero (x : EReal) : max x 1 ≠ 0 :=
  ne_of_gt (lt_of_lt_of_le zero_lt_one (le_max_right x 1))

/-- So the quotient by the clamped degree is the product with its inverse. -/
theorem div_max_one (a x : EReal) : Ideal.div a (max x 1) = a * (max x 1)⁻¹ := by
  rw [Ideal.div, if_neg (max_one_ne_zero x)]

/-- The inverse of the clamped degree is nonnegative. -/
theorem inv_max_one_nonneg (x : EReal) : 0 ≤ (max x 1)⁻¹ :=
  EReal.inv_nonneg_of_nonneg (le_trans zero_le_one (le_max_right x 1))

/-- The inverse of an extended real is never +infinity. -/
theorem inv_max_one_ne_top (x : EReal) : (max x 1)⁻¹ ≠ ⊤ := (EReal.inv_lt_top _).ne

/-- THE LAW: scaling the finished contraction by the reciprocal of the clamped degree is contracting the
    quotients. -/
theorem scaled_contraction {ι : Type} [Fintype ι] (a w : ι → EReal) (x : EReal) :
    (∑ k, a k * w k) * Ideal.div 1 (max x 1) = ∑ k, Ideal.div (a k) (max x 1) * w k := by
  rw [div_max_one, one_mul, sum_mul_of_nonneg_ne_top _ _ (inv_max_one_nonneg x) (inv_max_one_ne_top x)]
  refine Finset.sum_congr rfl fun k _ => ?_
  rw [div_max_one, mul_right_comm]

/-- One entry of a layer before its activation, the two programs' spellings: the scaled aggregate term, the
    self term r and the bias b, added in two different orders. -/
theorem entry_eq {ι : Type} [Fintype ι] (a w : ι → EReal) (x r b : EReal) :
    (∑ k, a k * w k) * Ideal.div 1 (max x 1) + r + b = (∑ k, Ideal.div (a k) (max x 1) * w k) + b + r := by
  rw [scaled_contraction, add_right_comm]

end Cert.SageLaw

end
-- ==== Proof.RefValue.lean ====
/-
  The reference program's result as the same function of the eight arguments.

  The reference is a straight line of host operations, read here one stage at a time at an entry (i, j) of each
  layer. Its gather, scatter-adds and degree count are, operation for operation, the ones the kernel program's host
  side applies, so the per-node sums and the degree are the same arrays. What differs is the arrangement of a
  layer: the reference divides each summed feature by the clamped degree before the matrix product and adds the bias
  before the self term. The law of ScaleLaw.lean turns one arrangement into the other at every entry, for the first
  layer and then, over the first layer's output, for the second; the reference's spelling of the logistic function
  is that function's definition.
-/
import proofs.«130020_j47115791237141_2_alg».proof.Proof.Gen.ReferenceIdeal.Read
import proofs.«130020_j47115791237141_2_alg».proof.Proof.HostGlue
import proofs.«130020_j47115791237141_2_alg».proof.Proof.ScaleLaw
import Idealize.ShloMosaic.Lib.ValueIdx
import Idealize.ShloMosaic.Lib.ValueLayout
import Idealize.ShloMosaic.Lib.Pipeline.Value

set_option maxRecDepth 16384

noncomputable section

namespace Cert.ReferenceIdeal.SageRef

open Cert.ReferenceIdeal Cert.ReferenceIdeal.Read Idealize.ShloMosaic Idealize.ShloMosaic.ValueIdx
open Cert.KernelIdeal.SageHost

/-! ## The host pieces are the same operations of the same operands in both programs -/

/-- The reference's first scatter-add is the per-node sum of the neighbours' 64-feature rows. -/
theorem agg64_eq (x0 : (⟨S100000x64, .f32⟩ : BufTy).Contents (Elt Ideal)) (x1 : (⟨S2x1600000, .i32⟩ : BufTy).Contents (Elt Ideal)) :
    val_main_v13 (F := Ideal) x0 x1 = agg64 x0 x1 := rfl
/-- Its count of ones is the in-degree, in the first layer … -/
theorem degree_eq (x1 : (⟨S2x1600000, .i32⟩ : BufTy).Contents (Elt Ideal)) : val_main_v17 (F := Ideal) x1 = degree x1 := rfl
/-- … and, recomputed, in the second. -/
theorem degree_eq' (x1 : (⟨S2x1600000, .i32⟩ : BufTy).Contents (Elt Ideal)) : val_main_v49 (F := Ideal) x1 = degree x1 := rfl
/-- Its second scatter-add is the per-node sum of the neighbours' hidden rows. -/
theorem agg128_eq (x0 : (⟨S100000x64, .f32⟩ : BufTy).Contents (Elt Ideal)) (x1 : (⟨S2x1600000, .i32⟩ : BufTy).Contents (Elt Ideal))
    (x2 x3 : (⟨S128x64, .f32⟩ : BufTy).Contents (Elt Ideal)) (x4 : (⟨S128, .f32⟩ : BufTy).Contents (Elt Ideal)) :
    val_main_v45 (F := Ideal) x0 x1 x2 x3 x4 = agg128 (val_main_v31 (F := Ideal) x0 x1 x2 x3 x4) x1 := rfl

/-! ## The scale column and the bias rows at an index -/

/-- A vector of a entries cast to a column reads, at (i, u), the vector's entry i. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A scalar broadcast to a vector reads the scalar everywhere. -/
theorem bcastScalar_apply {α : Type} {t : Shape} (h : (⟨0, ![]⟩ : Shape).BroadcastsInDim t (![] : Fin 0 → Fin t.rank))
    (y : (⟨0, ![]⟩ : Shape).Idx → α) (i : t.Idx) : broadcastInDim t ![] h y i = y ix0 :=
  broadcastInDim_apply _ h y i ix0 (fun a => a.elim0)

/-- The host's quotient of two arrays, at an index. -/
theorem hostDivf_apply {s : Shape} (a b : FVec Ideal s .f32) (i : s.Idx) : Host.divf (F := Ideal) a b i = Ideal.div (a i) (b i) := rfl

/-- Node p's scale factor is 1 over its in-degree clamped below at 1. -/
theorem scale_apply (ei : (⟨S2x1600000, .i32⟩ : BufTy).Contents (Elt Ideal)) (p : Fin 100000) :
    scale ei (ix2 p (0 : Fin 1)) = Ideal.div 1 (max (degree ei (ix1 p)) 1) := by
  unfold scale clampedDegree
  generalize degree ei = d
  rw [shapeCast_a_a1_apply, hostDivf_apply, maximumf_apply, bcastScalar_apply, constant_apply, Cert.SageLaw.ofBits_one]

theorem bias1_apply (b : (⟨S128, .f32⟩ : BufTy).Contents (Elt Ideal)) (q : Fin 128) : bias1 b (ix2 (0 : Fin 1) q) = b (ix1 q) := by
  unfold bias1
  exact shapeCast_a_1a_apply b _ 0 q
theorem bias2_apply (b : (⟨S64, .f32⟩ : BufTy).Contents (Elt Ideal)) (q : Fin 64) : bias2 b (ix2 (0 : Fin 1) q) = b (ix1 q) := by
  unfold bias2
  exact shapeCast_a_1a_apply b _ 0 q

/-! ## The layer functions at an entry (stated over variables: nothing large is unfolded) -/

theorem relu_apply (n c o : ℕ) (S : (⟨2, ![n, c]⟩ : Shape).Idx → EReal) (r : (⟨2, ![n, 1]⟩ : Shape).Idx → EReal)
    (X : (⟨2, ![n, c]⟩ : Shape).Idx → EReal) (Wl Wr : (⟨2, ![o, c]⟩ : Shape).Idx → EReal) (b : (⟨2, ![1, o]⟩ : Shape).Idx → EReal)
    (p : Fin n) (q : Fin o) :
    Cert.Sage.relu n c o S r X Wl Wr b (ix2 p q)
      = max ((∑ k : Fin c, S (ix2 p k) * Wl (ix2 q k)) * r (ix2 p (0 : Fin 1)) + (∑ k : Fin c, X (ix2 p k) * Wr (ix2 q k)) + b (ix2 (0 : Fin 1) q)) 0 := rfl

theorem sigmoid_apply (n c o : ℕ) (S : (⟨2, ![n, c]⟩ : Shape).Idx → EReal) (r : (⟨2, ![n, 1]⟩ : Shape).Idx → EReal)
    (X : (⟨2, ![n, c]⟩ : Shape).Idx → EReal) (Wl Wr : (⟨2, ![o, c]⟩ : Shape).Idx → EReal) (b : (⟨2, ![1, o]⟩ : Shape).Idx → EReal)
    (p : Fin n) (q : Fin o) :
    Cert.Sage.sigmoid n c o S r X Wl Wr b (ix2 p q)
      = Ideal.logistic ((∑ k : Fin c, S (ix2 p k) * Wl (ix2 q k)) * r (ix2 p (0 : Fin 1)) + (∑ k : Fin c, X (ix2 p k) * Wr (ix2 q k)) + b (ix2 (0 : Fin 1) q)) := rfl

/-! ## The first layer -/

/-- One summand of the reference's aggregate product: node p's summed feature k divided by p's clamped degree. -/
theorem quot1 (x0 : (⟨S100000x64, .f32⟩ : BufTy).Contents (Elt Ideal)) (x1 : (⟨S2x1600000, .i32⟩ : BufTy).Contents (Elt Ideal))
    (p : Fin 100000) (q : Fin 128) (k : Fin 64) :
    val_main_v22 (F := Ideal) x0 x1 (lidx_main_v24 (ix2 p q) k) = Ideal.div (agg64 x0 x1 (ix2 p k)) (max (degree x1 (ix1 p)) 1) := by
  rw [val_main_v22_apply, val_main_v21_apply, val_main_v20_apply, val_main_v19_apply, val_main_v18_apply, val_main_cst_3_apply, agg64_eq, degree_eq]
  have e1 : lidx_main_v24 (ix2 p q) k = ix2 p k := funext fun a => Fin.ext (by match a with | ⟨0, _⟩ => rfl | ⟨1, _⟩ => rfl)
  have e2 : idx_main_v20 (idx_main_v21 (ix2 p k)) = ix1 p := funext fun a => Fin.ext (by match a with | ⟨0, _⟩ => rfl)
  rw [e1, e2]
  generalize agg64 x0 x1 (ix2 p k) = a
  generalize degree x1 (ix1 p) = d
  rw [Ideal.hostDivf_def, Ideal.maximumf_def, Ideal.ofBits_def, Cert.SageLaw.ofBits_one]

/-- THE FIRST LAYER: the reference's hidden features are the layer function of the same arrays, by the law that
    scaling the finished contraction is contracting the quotients. -/
theorem hidden_eq (x0 : (⟨S100000x64, .f32⟩ : BufTy).Contents (Elt Ideal)) (x1 : (⟨S2x1600000, .i32⟩ : BufTy).Contents (Elt Ideal))
    (x2 x3 : (⟨S128x64, .f32⟩ : BufTy).Contents (Elt Ideal)) (x4 : (⟨S128, .f32⟩ : BufTy).Contents (Elt Ideal)) :
    val_main_v31 (F := Ideal) x0 x1 x2 x3 x4 = hidden x0 x1 x2 x3 x4 := by
  funext i
  obtain ⟨p, q, rfl⟩ : ∃ (p : Fin 100000) (q : Fin 128), i = ix2 p q := ⟨i 0, i 1, eq_ix2 i⟩
  rw [val_main_v31_apply, val_main_v30_apply, val_main_v27_apply, val_main_v24_apply, val_main_v29_apply, val_main_v26_apply, val_main_v25_apply, val_main_call0_v0_apply, val_main_call0_cst_apply]
  have e1 : (∑ k : Fin 64, val_main_v22 (F := Ideal) x0 x1 (lidx_main_v24 (ix2 p q) k) * val_main_v23 (F := Ideal) x2 (ridx_main_v24 (ix2 p q) k))
      = ∑ k : Fin 64, Ideal.div (agg64 x0 x1 (ix2 p k)) (max (degree x1 (ix1 p)) 1) * x2 (ix2 q k) :=
    Finset.sum_congr rfl fun k _ => by
      have er : idx_main_v23 (ridx_main_v24 (ix2 p q) k) = ix2 q k := funext fun a => Fin.ext (by match a with | ⟨0, _⟩ => rfl | ⟨1, _⟩ => rfl)
      rw [quot1, val_main_v23_apply, er]
  have e2 : (∑ k : Fin 64, x0 (lidx_main_v29 (ix2 p q) k) * val_main_v28 (F := Ideal) x3 (ridx_main_v29 (ix2 p q) k))
      = ∑ k : Fin 64, x0 (ix2 p k) * x3 (ix2 q k) :=
    Finset.sum_congr rfl fun k _ => by
      have el : lidx_main_v29 (ix2 p q) k = ix2 p k := funext fun a => Fin.ext (by match a with | ⟨0, _⟩ => rfl | ⟨1, _⟩ => rfl)
      have er : idx_main_v28 (ridx_main_v29 (ix2 p q) k) = ix2 q k := funext fun a => Fin.ext (by match a with | ⟨0, _⟩ => rfl | ⟨1, _⟩ => rfl)
      rw [val_main_v28_apply, el, er]
  have eb : idx_main_v25 (idx_main_v26 (ix2 p q)) = ix1 q := funext fun a => Fin.ext (by match a with | ⟨0, _⟩ => rfl)
  rw [e1, e2, eb]
  unfold Cert.KernelIdeal.SageHost.hidden
  rw [relu_apply, scale_apply, bias1_apply]
  generalize degree x1 (ix1 p) = d
  rw [Ideal.maximumf_def, Ideal.addf_def, Ideal.addf_def, Ideal.ofBits_def, Ideal.ofBits_zero_f32]
  exact congrArg (max · 0) (Cert.SageLaw.entry_eq (fun k => agg64 x0 x1 (ix2 p k)) (fun k => x2 (ix2 q k)) d _ _).symm

/-! ## The second layer -/

/-- One summand of the reference's second aggregate product: node p's summed hidden feature k divided by p's
    clamped degree (recounted by the reference; the same count). -/
theorem quot2 (x0 : (⟨S100000x64, .f32⟩ : BufTy).Contents (Elt Ideal)) (x1 : (⟨S2x1600000, .i32⟩ : BufTy).Contents (Elt Ideal))
    (x2 x3 : (⟨S128x64, .f32⟩ : BufTy).Contents (Elt Ideal)) (x4 : (⟨S128, .f32⟩ : BufTy).Contents (Elt Ideal))
    (p : Fin 100000) (q : Fin 64) (k : Fin 128) :
    val_main_v54 (F := Ideal) x0 x1 x2 x3 x4 (lidx_main_v56 (ix2 p q) k)
      = Ideal.div (agg128 (Cert.KernelIdeal.SageHost.hidden x0 x1 x2 x3 x4) x1 (ix2 p k)) (max (degree x1 (ix1 p)) 1) := by
  rw [val_main_v54_apply, val_main_v53_apply, val_main_v52_apply, val_main_v51_apply, val_main_v50_apply, val_main_cst_9_apply, agg128_eq, hidden_eq, degree_eq']
  have e1 : lidx_main_v56 (ix2 p q) k = ix2 p k := funext fun a => Fin.ext (by match a with | ⟨0, _⟩ => rfl | ⟨1, _⟩ => rfl)
  have e2 : idx_main_v52 (idx_main_v53 (ix2 p k)) = ix1 p := funext fun a => Fin.ext (by match a with | ⟨0, _⟩ => rfl)
  rw [e1, e2]
  generalize agg128 (Cert.KernelIdeal.SageHost.hidden x0 x1 x2 x3 x4) x1 (ix2 p k) = a
  generalize degree x1 (ix1 p) = d
  rw [Ideal.hostDivf_def, Ideal.maximumf_def, Ideal.ofBits_def, Cert.SageLaw.ofBits_one]

/-- THE SECOND LAYER, and with it the whole reference: its result is the network function of its arguments. The
    reference spells the logistic function as 1 / (1 + exp (-x)), which is its definition on the extended reals. -/
theorem network_eq (x0 : (⟨S100000x64, .f32⟩ : BufTy).Contents (Elt Ideal)) (x1 : (⟨S2x1600000, .i32⟩ : BufTy).Contents (Elt Ideal))
    (x2 x3 : (⟨S128x64, .f32⟩ : BufTy).Contents (Elt Ideal)) (x4 : (⟨S128, .f32⟩ : BufTy).Contents (Elt Ideal))
    (x5 x6 : (⟨S64x128, .f32⟩ : BufTy).Contents (Elt Ideal)) (x7 : (⟨S64, .f32⟩ : BufTy).Contents (Elt Ideal)) :
    val_main_v68 (F := Ideal) x0 x1 x2 x3 x4 x5 x6 x7 = network x0 x1 x2 x3 x4 x5 x6 x7 := by
  funext i
  obtain ⟨p, q, rfl⟩ : ∃ (p : Fin 100000) (q : Fin 64), i = ix2 p q := ⟨i 0, i 1, eq_ix2 i⟩
  rw [val_main_v68_apply, val_main_v67_apply, val_main_cst_11_apply, val_main_v66_apply, val_main_v65_apply, val_main_cst_10_apply, val_main_v64_apply, val_main_v63_apply, val_main_v62_apply, val_main_v59_apply, val_main_v56_apply, val_main_v61_apply, val_main_v58_apply, val_main_v57_apply]
  have e1 : (∑ k : Fin 128, val_main_v54 (F := Ideal) x0 x1 x2 x3 x4 (lidx_main_v56 (ix2 p q) k) * val_main_v55 (F := Ideal) x5 (ridx_main_v56 (ix2 p q) k))
      = ∑ k : Fin 128, Ideal.div (agg128 (Cert.KernelIdeal.SageHost.hidden x0 x1 x2 x3 x4) x1 (ix2 p k)) (max (degree x1 (ix1 p)) 1) * x5 (ix2 q k) :=
    Finset.sum_congr rfl fun k _ => by
      have er : idx_main_v55 (ridx_main_v56 (ix2 p q) k) = ix2 q k := funext fun a => Fin.ext (by match a with | ⟨0, _⟩ => rfl | ⟨1, _⟩ => rfl)
      rw [quot2, val_main_v55_apply, er]
  have e2 : (∑ k : Fin 128, val_main_v31 (F := Ideal) x0 x1 x2 x3 x4 (lidx_main_v61 (ix2 p q) k) * val_main_v60 (F := Ideal) x6 (ridx_main_v61 (ix2 p q) k))
      = ∑ k : Fin 128, Cert.KernelIdeal.SageHost.hidden x0 x1 x2 x3 x4 (ix2 p k) * x6 (ix2 q k) :=
    Finset.sum_congr rfl fun k _ => by
      have el : lidx_main_v61 (ix2 p q) k = ix2 p k := funext fun a => Fin.ext (by match a with | ⟨0, _⟩ => rfl | ⟨1, _⟩ => rfl)
      have er : idx_main_v60 (ridx_main_v61 (ix2 p q) k) = ix2 q k := funext fun a => Fin.ext (by match a with | ⟨0, _⟩ => rfl | ⟨1, _⟩ => rfl)
      rw [hidden_eq, val_main_v60_apply, el, er]
  have eb : idx_main_v57 (idx_main_v58 (ix2 p q)) = ix1 q := funext fun a => Fin.ext (by match a with | ⟨0, _⟩ => rfl)
  rw [e1, e2, eb]
  unfold network
  rw [sigmoid_apply, scale_apply, bias2_apply]
  generalize degree x1 (ix1 p) = d
  generalize Cert.KernelIdeal.SageHost.hidden x0 x1 x2 x3 x4 = H
  generalize agg128 H x1 = S
  have h : (∑ k : Fin 128, Ideal.div (S (ix2 p k)) (max d 1) * x5 (ix2 q k)) + x7 (ix1 q) + (∑ k : Fin 128, H (ix2 p k) * x6 (ix2 q k))
      = (∑ k : Fin 128, S (ix2 p k) * x5 (ix2 q k)) * Ideal.div 1 (max d 1) + (∑ k : Fin 128, H (ix2 p k) * x6 (ix2 q k)) + x7 (ix1 q) :=
    (Cert.SageLaw.entry_eq (fun k => S (ix2 p k)) (fun k => x5 (ix2 q k)) d _ _).symm
  simp only [Ideal.hostDivf_def, Ideal.addf_def, Ideal.hostUnary_exp_def, Ideal.hostNegf_def, Ideal.negf_def, Ideal.ofBits_def, Cert.SageLaw.ofBits_one]
  rw [h]
  rfl

end Cert.ReferenceIdeal.SageRef

end
-- ==== Proof.lean ====
/-
  A two-layer mean-aggregation graph convolution (GraphSAGE) on 100000 nodes and 1600000 edges: the Pallas program
  against its jnp reference, equal on the extended reals.

  Both programs slice the edge list, gather the source nodes' feature rows and scatter-add them at the destination
  nodes (the per-node sum S of the neighbours' features), count each node's in-degree the same way, and apply per
  layer  act( mean-aggregate · Wlᵀ + b + x · Wrᵀ ).  They differ in three places, none of which is a difference on
  the extended reals:
    * the Pallas program gathers and multiplies through bf16, a change of format, which is the identity there;
    * it forms the mean AFTER the matrix product, (sum over k of S(i,k) Wl(j,k)) · (1 / d(i)), where the reference
      divides first, sum over k of (S(i,k) / d(i)) Wl(j,k), with d(i) = max(deg(i), 1). Since d(i) ≥ 1, its inverse
      is a nonnegative real number, and multiplication by such a factor distributes over every sum of extended
      reals (Proof/ScaleLaw.lean); the bias and the self term are then added in a different order, which addition
      on the extended reals allows. Neither step needs an input to be finite: the precondition is never opened;
    * its second call applies the logistic function as one operation where the reference spells 1 / (1 + exp (-x)),
      which is that function's definition on the extended reals.
  The modules: ScaleLaw (the law), Layers (a layer as a function of whole arrays), HostGlue (the gather /
  scatter-add / degree pieces and the network as one function of the eight arguments), KernelBody (a kernel body's
  stored block at an entry), KernelBlocks (each call's 25 row blocks tile its output array), KernelRun (the run of
  @main's four segments with the result array named), KernelValue (the result array is the network of the launch
  arguments), RefValue (so is the reference's result). The frames of the two kernel programs are the generated ones;
  the reference's frame is its generated run with the result dropped; no rewrite was applied by the idealization,
  so there is nothing to preserve.
-/
import proofs.«130020_j47115791237141_2_alg».proof.Defs
import proofs.«130020_j47115791237141_2_alg».proof.Proof.Gen.Kernel
import proofs.«130020_j47115791237141_2_alg».proof.Proof.Gen.Kernel.Skeleton
import proofs.«130020_j47115791237141_2_alg».proof.Proof.Gen.Kernel.Launch
import proofs.«130020_j47115791237141_2_alg».proof.Proof.Gen.Kernel.Points
import proofs.«130020_j47115791237141_2_alg».proof.Proof.Gen.Kernel.Frame
import proofs.«130020_j47115791237141_2_alg».proof.Proof.Gen.KernelIdeal
import proofs.«130020_j47115791237141_2_alg».proof.Proof.Gen.KernelIdeal.Skeleton
import proofs.«130020_j47115791237141_2_alg».proof.Proof.Gen.KernelIdeal.Launch
import proofs.«130020_j47115791237141_2_alg».proof.Proof.Gen.KernelIdeal.Points
import proofs.«130020_j47115791237141_2_alg».proof.Proof.Gen.KernelIdeal.Frame
import proofs.«130020_j47115791237141_2_alg».proof.Proof.Gen.ReferenceIdeal
import proofs.«130020_j47115791237141_2_alg».proof.Proof.Gen.ReferenceIdeal.Run
import proofs.«130020_j47115791237141_2_alg».proof.Proof.Gen.ReferenceIdeal.Read
import proofs.«130020_j47115791237141_2_alg».proof.Proof.Gen.Pre_finite_inputs
import proofs.«130020_j47115791237141_2_alg».proof.Proof.KernelRun
import proofs.«130020_j47115791237141_2_alg».proof.Proof.KernelValue
import proofs.«130020_j47115791237141_2_alg».proof.Proof.RefValue
import Idealize.ShloMosaic.Adequacy
import Idealize.ShloMosaic.Init

noncomputable section

namespace Cert.Proof

open Idealize.ShloMosaic Idealize.SL.Sem

/-- The word-level kernel program runs and leaves its arguments as launched. -/
theorem frame_kernel : Cert.frame_Kernel := fun m ρ _ => Cert.Kernel.Gen.frame m ρ

/-- So does its reading on the extended reals. -/
theorem frame_kernelIdeal : Cert.frame_KernelIdeal := fun m ρ _ => Cert.KernelIdeal.Gen.frame m ρ

/-- The reference is a straight line of host operations: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the eight arguments both programs end with the network's output of those arguments in
    their result arrays, entry for entry on the extended reals, and leave the arguments unchanged. -/
theorem algebraic : Cert.algebraic_KernelIdeal_ReferenceIdeal := by
  intro m ρ m' ρ' _ hagree
  refine ⟨fun c => Cert.KernelIdeal.SageHost.network (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.KernelIdeal.SageValue.result_eq m ρ c), (h c).2⟩)
      (Cert.KernelIdeal.SageRun.run_result (F := Ideal) m ρ)
  · refine (θ_run Cert.ReferenceIdeal.defs _ _).mono (fun _ h c => ⟨(h c).1.trans ?_, (h c).2⟩)
      (Cert.ReferenceIdeal.Value.run (F := Ideal) m' ρ')
    obtain ⟨a0, a1, a2, a3, a4, a5, a6, a7⟩ := hagree c
    rw [Cert.ReferenceIdeal.Read.val_main_v68_eq, Cert.ReferenceIdeal.SageRef.network_eq, a0, a1, a2, a3, a4, a5, a6, a7]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
